-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S5000x64 : Shape := ⟨2, ![5000, 64]⟩
abbrev S1250000x64 : Shape := ⟨2, ![1250000, 64]⟩
abbrev S1x64 : Shape := ⟨2, ![1, 64]⟩
abbrev S5000x1 : Shape := ⟨2, ![5000, 1]⟩
abbrev S1x1 : Shape := ⟨2, ![1, 1]⟩

abbrev nBuf : Space → Nat
  | .hbm => 102
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .f32⟩
  | .hbm, ⟨13, _⟩ => ⟨S1250000, .f32⟩
  | .hbm, ⟨14, _⟩ => ⟨S_, .f32⟩
  | .hbm, ⟨15, _⟩ => ⟨S100000, .f32⟩
  | .hbm, ⟨16, _⟩ => ⟨S1250000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x64, .f32⟩
  | .hbm, ⟨25, _⟩ => ⟨S_, .i32⟩
  | .hbm, ⟨26, _⟩ => ⟨S1250000, .i32⟩
  | .hbm, ⟨27, _⟩ => ⟨S1250000, .i1⟩
  | .hbm, ⟨28, _⟩ => ⟨S_, .i32⟩
  | .hbm, ⟨29, _⟩ => ⟨S1250000, .i32⟩
  | .hbm, ⟨30, _⟩ => ⟨S1250000, .i32⟩
  | .hbm, ⟨31, _⟩ => ⟨S1250000, .i32⟩
  | .hbm, ⟨32, _⟩ => ⟨S1250000x1, .i32⟩
  | .hbm, ⟨33, _⟩ => ⟨S1250000x64, .f32⟩
  | .hbm, ⟨34, _⟩ => ⟨S_, .i32⟩
  | .hbm, ⟨35, _⟩ => ⟨S1250000, .i32⟩
  | .hbm, ⟨36, _⟩ => ⟨S1250000, .i1⟩
  | .hbm, ⟨37, _⟩ => ⟨S_, .i32⟩
  | .hbm, ⟨38, _⟩ => ⟨S1250000, .i32⟩
  | .hbm, ⟨39, _⟩ => ⟨S1250000, .i32⟩
  | .hbm, ⟨40, _⟩ => ⟨S1250000, .i32⟩
  | .hbm, ⟨41, _⟩ => ⟨S1250000x1, .i32⟩
  | .hbm, ⟨42, _⟩ => ⟨S1250000, .f32⟩
  | .hbm, ⟨43, _⟩ => ⟨S_, .i32⟩
  | .hbm, ⟨44, _⟩ => ⟨S1250000, .i32⟩
  | .hbm, ⟨45, _⟩ => ⟨S1250000, .i1⟩
  | .hbm, ⟨46, _⟩ => ⟨S_, .i32⟩
  | .hbm, ⟨47, _⟩ => ⟨S1250000, .i32⟩
  | .hbm, ⟨48, _⟩ => ⟨S1250000, .i32⟩
  | .hbm, ⟨49, _⟩ => ⟨S1250000, .i32⟩
  | .hbm, ⟨50, _⟩ => ⟨S1250000x1, .i32⟩
  | .hbm, ⟨51, _⟩ => ⟨S1250000, .f32⟩
  | .hbm, ⟨52, _⟩ => ⟨S1250000, .f32⟩
  | .hbm, ⟨53, _⟩ => ⟨S1250000x1, .f32⟩
  | .hbm, ⟨54, _⟩ => ⟨S1250000x64, .f32⟩
  | .hbm, ⟨55, _⟩ => ⟨S1250000x64, .f32⟩
  | .hbm, ⟨56, _⟩ => ⟨S_, .f32⟩
  | .hbm, ⟨57, _⟩ => ⟨S100000x64, .f32⟩
  | .hbm, ⟨58, _⟩ => ⟨S1250000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1250000, .i32⟩
  | .hbm, ⟨65, _⟩ => ⟨S1250000, .i1⟩
  | .hbm, ⟨66, _⟩ => ⟨S_, .i32⟩
  | .hbm, ⟨67, _⟩ => ⟨S1250000, .i32⟩
  | .hbm, ⟨68, _⟩ => ⟨S1250000, .i32⟩
  | .hbm, ⟨69, _⟩ => ⟨S1250000, .i32⟩
  | .hbm, ⟨70, _⟩ => ⟨S1250000x1, .i32⟩
  | .hbm, ⟨71, _⟩ => ⟨S1250000x64, .f32⟩
  | .hbm, ⟨72, _⟩ => ⟨S_, .i32⟩
  | .hbm, ⟨73, _⟩ => ⟨S1250000, .i32⟩
  | .hbm, ⟨74, _⟩ => ⟨S1250000, .i1⟩
  | .hbm, ⟨75, _⟩ => ⟨S_, .i32⟩
  | .hbm, ⟨76, _⟩ => ⟨S1250000, .i32⟩
  | .hbm, ⟨77, _⟩ => ⟨S1250000, .i32⟩
  | .hbm, ⟨78, _⟩ => ⟨S1250000, .i32⟩
  | .hbm, ⟨79, _⟩ => ⟨S1250000x1, .i32⟩
  | .hbm, ⟨80, _⟩ => ⟨S1250000, .f32⟩
  | .hbm, ⟨81, _⟩ => ⟨S_, .i32⟩
  | .hbm, ⟨82, _⟩ => ⟨S1250000, .i32⟩
  | .hbm, ⟨83, _⟩ => ⟨S1250000, .i1⟩
  | .hbm, ⟨84, _⟩ => ⟨S_, .i32⟩
  | .hbm, ⟨85, _⟩ => ⟨S1250000, .i32⟩
  | .hbm, ⟨86, _⟩ => ⟨S1250000, .i32⟩
  | .hbm, ⟨87, _⟩ => ⟨S1250000, .i32⟩
  | .hbm, ⟨88, _⟩ => ⟨S1250000x1, .i32⟩
  | .hbm, ⟨89, _⟩ => ⟨S1250000, .f32⟩
  | .hbm, ⟨90, _⟩ => ⟨S1250000, .f32⟩
  | .hbm, ⟨91, _⟩ => ⟨S1250000x1, .f32⟩
  | .hbm, ⟨92, _⟩ => ⟨S1250000x64, .f32⟩
  | .hbm, ⟨93, _⟩ => ⟨S1250000x64, .f32⟩
  | .hbm, ⟨94, _⟩ => ⟨S_, .f32⟩
  | .hbm, ⟨95, _⟩ => ⟨S100000x64, .f32⟩
  | .hbm, ⟨96, _⟩ => ⟨S1250000x1, .i32⟩
  | .hbm, ⟨97, _⟩ => ⟨S100000x64, .f32⟩
  | .hbm, ⟨98, _⟩ => ⟨S1x64, .f32⟩
  | .hbm, ⟨99, _⟩ => ⟨S100000x64, .f32⟩
  | .hbm, ⟨100, _⟩ => ⟨S1x1, .f32⟩
  | .hbm, ⟨101, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x1, .f32⟩
  | .local _ .vmem, ⟨31, _⟩ => ⟨S1x1, .f32⟩
  | .local _ .vmem, ⟨32, _⟩ => ⟨S5000x1, .f32⟩
  | .local _ .vmem, ⟨33, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S1250000_S1250000x1 : S1250000.ShapeCasts S1250000x1
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1250000x1_S1250000_n_0_0_1_wf : ScatterDims.WF S100000 S1250000x1 S1250000 [] [0] [0] 1
  dot_S5000x64_S64x64_S5000x64_1_0_0_1_n_n_wf : DotDims.WF S5000x64 S64x64 S5000x64 [1] [0] [0] [1] [] []
  gather_S100000x64_S1250000x1_S1250000x64_1_0_n_n_0_1_164_wf : GatherDims.WF S100000x64 S1250000x1 S1250000x64 [1] [0] [] [0] [] 1 ![1, 64]
  gather_S100000_S1250000x1_S1250000_n_0_n_n_0_1_1_wf : GatherDims.WF S100000 S1250000x1 S1250000 [] [0] [] [0] [] 1 ![1]
  scatter_S100000x64_S1250000x1_S1250000x64_1_0_0_1_wf : ScatterDims.WF S100000x64 S1250000x1 S1250000x64 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S100000x1.size a
  hwx4_3 : ∀ i : grid4.Coords, EltTy.bits .f32 = 32 ∨ (Rect.block (s := S100000x1) S5000x1.size (cc4_transform_3 i) (hinb4_3 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v74) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v76) S5000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S1250000x64 : Shape := ⟨2, ![1250000, 64]⟩
abbrev S100000x1 : Shape := ⟨2, ![100000, 1]⟩
abbrev S1x64 : Shape := ⟨2, ![1, 64]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S100000x64, .f32⟩
  | 1 => ⟨S2x1250000, .i32⟩
  | 2 => ⟨S64x64, .f32⟩
  | 3 => ⟨S64, .f32⟩
  | 4 => ⟨S64x64, .f32⟩
  | 5 => ⟨S64, .f32⟩
  | 6 => ⟨S64x1, .f32⟩
  | 7 => ⟨S1, .f32⟩
  | 8 => ⟨S1x1250000, .i32⟩
  | 9 => ⟨S1250000, .i32⟩
  | 10 => ⟨S1x1250000, .i32⟩
  | 11 => ⟨S1250000, .i32⟩
  | 12 => ⟨S100000x64, .f32⟩
  | 13 => ⟨S_, .f32⟩
  | 14 => ⟨S1250000, .f32⟩
  | 15 => ⟨S_, .f32⟩
  | 16 => ⟨S100000, .f32⟩
  | 17 => ⟨S1250000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1250000, .i32⟩
  | 25 => ⟨S1250000, .i1⟩
  | 26 => ⟨S_, .i32⟩
  | 27 => ⟨S1250000, .i32⟩
  | 28 => ⟨S1250000, .i32⟩
  | 29 => ⟨S1250000, .i32⟩
  | 30 => ⟨S1250000x1, .i32⟩
  | 31 => ⟨S1250000, .f32⟩
  | 32 => ⟨S_, .i32⟩
  | 33 => ⟨S1250000, .i32⟩
  | 34 => ⟨S1250000, .i1⟩
  | 35 => ⟨S_, .i32⟩
  | 36 => ⟨S1250000, .i32⟩
  | 37 => ⟨S1250000, .i32⟩
  | 38 => ⟨S1250000, .i32⟩
  | 39 => ⟨S1250000x1, .i32⟩
  | 40 => ⟨S1250000, .f32⟩
  | 41 => ⟨S1250000, .f32⟩
  | 42 => ⟨S_, .i32⟩
  | 43 => ⟨S1250000, .i32⟩
  | 44 => ⟨S1250000, .i1⟩
  | 45 => ⟨S_, .i32⟩
  | 46 => ⟨S1250000, .i32⟩
  | 47 => ⟨S1250000, .i32⟩
  | 48 => ⟨S1250000, .i32⟩
  | 49 => ⟨S1250000x1, .i32⟩
  | 50 => ⟨S1250000x64, .f32⟩
  | 51 => ⟨S1250000x1, .f32⟩
  | 52 => ⟨S1250000x64, .f32⟩
  | 53 => ⟨S1250000x64, .f32⟩
  | 54 => ⟨S_, .f32⟩
  | 55 => ⟨S100000x64, .f32⟩
  | 56 => ⟨S1250000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .f32⟩
  | 71 => ⟨S1250000, .f32⟩
  | 72 => ⟨S_, .f32⟩
  | 73 => ⟨S100000, .f32⟩
  | 74 => ⟨S1250000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1250000, .i32⟩
  | 82 => ⟨S1250000, .i1⟩
  | 83 => ⟨S_, .i32⟩
  | 84 => ⟨S1250000, .i32⟩
  | 85 => ⟨S1250000, .i32⟩
  | 86 => ⟨S1250000, .i32⟩
  | 87 => ⟨S1250000x1, .i32⟩
  | 88 => ⟨S1250000, .f32⟩
  | 89 => ⟨S_, .i32⟩
  | 90 => ⟨S1250000, .i32⟩
  | 91 => ⟨S1250000, .i1⟩
  | 92 => ⟨S_, .i32⟩
  | 93 => ⟨S1250000, .i32⟩
  | 94 => ⟨S1250000, .i32⟩
  | 95 => ⟨S1250000, .i32⟩
  | 96 => ⟨S1250000x1, .i32⟩
  | 97 => ⟨S1250000, .f32⟩
  | 98 => ⟨S1250000, .f32⟩
  | 99 => ⟨S_, .i32⟩
  | 100 => ⟨S1250000, .i32⟩
  | 101 => ⟨S1250000, .i1⟩
  | 102 => ⟨S_, .i32⟩
  | 103 => ⟨S1250000, .i32⟩
  | 104 => ⟨S1250000, .i32⟩
  | 105 => ⟨S1250000, .i32⟩
  | 106 => ⟨S1250000x1, .i32⟩
  | 107 => ⟨S1250000x64, .f32⟩
  | 108 => ⟨S1250000x1, .f32⟩
  | 109 => ⟨S1250000x64, .f32⟩
  | 110 => ⟨S1250000x64, .f32⟩
  | 111 => ⟨S_, .f32⟩
  | 112 => ⟨S100000x64, .f32⟩
  | 113 => ⟨S1250000x1, .i32⟩
  | 114 => ⟨S100000x64, .f32⟩
  | 115 => ⟨S100000, .f32⟩
  | 116 => ⟨S100000x1, .f32⟩
  | 117 => ⟨S100000x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S100000x1, .f32⟩
  | 127 => ⟨S1x1, .f32⟩
  | _ => ⟨S100000x64, .f32⟩

abbrev hbmTy0_1 (i : Nat) : BufTy := match i % 128 with
  | 0 => ⟨S100000x1, .f32⟩
  | 1 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x64_S64x64_S100000x64_1_0_0_1_n_n_wf : DotDims.WF S100000x64 S64x64 S100000x64 [1] [0] [0] [1] [] []
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x1_S100000x1_1_0_0_1_n_n_wf : DotDims.WF S100000x64 S64x1 S100000x1 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KRun.lean ====
/-
  The kernel program's run with its result buffer named: every weakly fair execution ends, nothing faulting, with the
  result buffer at the contents the last region's write-backs leave and the eight argument arrays as launched.
-/
import proofs.«117982_j53755810677200_1_alg».proof.Proof.Gen.KernelIdeal.Frame

set_option maxRecDepth 16384

noncomputable section

namespace Cert.KernelIdeal.Val

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the nine segments (four stretches of host operations, five regions) from the launch memory: the final
    state holds every unscoped buffer at the last boundary's contents, so the result buffer is read off that boundary
    and each argument walks back through the boundaries to its launch contents. -/
theorem run_named : θ_run defs (onTc (τ := τ) (main (F := F))) ⟨m, fun _ => 0, ρ⟩ (fun r => ∀ c : Dev nD,
      r.2.mem ((c.tc : Thread nD τ).loc main_v76) = W9 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v76 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Val

end
-- ==== Proof.Spec.lean ====
/-
  The three dense stages of the two-layer graph convolution, each as one whole-array function read index by
  index on the extended reals: a product with a square weight matrix, the normalised self-term plus bias under a
  rectifier, and the final one-column product plus bias; and the four re-layings of a vector as a thin matrix.
-/
import Idealize.ShloMosaic.PureOps.Ideal
import Idealize.ShloMosaic.Lib.ValueIdx

noncomputable section

open scoped BigOperators

namespace Cert.Spec

open Idealize.ShloMosaic Idealize.ShloMosaic.ValueIdx

/-- Row `r`, column `c` of `x · w`: the sum over `k` of `x[r,k] · w[k,c]` (100000 rows, 64 by 64 weights). -/
def mm (x : (⟨2, ![100000, 64]⟩ : Shape).Idx → EReal) (w : (⟨2, ![64, 64]⟩ : Shape).Idx → EReal) :
    (⟨2, ![100000, 64]⟩ : Shape).Idx → EReal :=
  fun i => ∑ k : Fin 64, x (ix2 (i 0) k) * w (ix2 k (i 1))

/-- Row `r`, column `c` of `max (agg + h · d + b) 0`: the aggregate plus the row's own features scaled by the
    row's coefficient `d[r]` (a column) plus the bias `b[c]` (a row), rectified at the zero word. -/
def comb (agg h : (⟨2, ![100000, 64]⟩ : Shape).Idx → EReal) (d : (⟨2, ![100000, 1]⟩ : Shape).Idx → EReal)
    (b : (⟨2, ![1, 64]⟩ : Shape).Idx → EReal) : (⟨2, ![100000, 64]⟩ : Shape).Idx → EReal :=
  fun i => max (agg i + h i * d (ix2 (i 0) 0) + b (ix2 0 (i 1))) (Ideal.ofBits .f32 0x00000000#32)

/-- Row `r` of `h · w + b` for a one-column weight: the sum over `k` of `h[r,k] · w[k,0]`, plus the one bias. -/
def lin (h : (⟨2, ![100000, 64]⟩ : Shape).Idx → EReal) (w : (⟨2, ![64, 1]⟩ : Shape).Idx → EReal)
    (b : (⟨2, ![1, 1]⟩ : Shape).Idx → EReal) : (⟨2, ![100000, 1]⟩ : Shape).Idx → EReal :=
  fun i => (∑ k : Fin 64, h (ix2 (i 0) k) * w (ix2 k 0)) + b (ix2 0 0)

/-- A vector of one value per row as a one-column array. -/
def col (d : (⟨1, ![100000]⟩ : Shape).Idx → EReal) : (⟨2, ![100000, 1]⟩ : Shape).Idx → EReal := fun i => d (ix1 (i 0))

/-- A vector of one value per column as a one-row array. -/
def row (b : (⟨1, ![64]⟩ : Shape).Idx → EReal) : (⟨2, ![1, 64]⟩ : Shape).Idx → EReal := fun i => b (ix1 (i 1))

/-- A one-element vector as a one-by-one array. -/
def one (b : (⟨1, ![1]⟩ : Shape).Idx → EReal) : (⟨2, ![1, 1]⟩ : Shape).Idx → EReal := fun _ => b (ix1 0)

/-- A vector of one value per edge as a one-column array. -/
def ecol (v : (⟨1, ![1250000]⟩ : Shape).Idx → EReal) : (⟨2, ![1250000, 1]⟩ : Shape).Idx → EReal := fun i => v (ix1 (i 0))

end Cert.Spec

end
-- ==== Proof.Val.lean ====
/-
  The value the kernel program computes, as one function of its eight argument arrays: the edge list split into
  sources and targets, the inverse square root of each node's degree (one plus the number of edges that end at it),
  one graph-convolution layer — a product with the weights, the neighbours' rows gathered along the sources, scaled
  by the two ends' coefficients and summed into the targets, plus the node's own row times its squared coefficient,
  plus the bias, rectified —, the layer applied twice and a last one-column product plus bias.
-/
import proofs.«117982_j53755810677200_1_alg».proof.Proof.Gen.KernelIdeal
import proofs.«117982_j53755810677200_1_alg».proof.Proof.Spec

noncomputable section

namespace Cert.KernelIdeal.Val

open Cert.KernelIdeal Cert.KernelIdeal.Gen Idealize.ShloMosaic

/-- The edges' sources: row 0 of the edge list. -/
def src (ei : IVec S2x1250000 32) : IVec S1250000 32 :=
  shapeCast _ (extractStridedSlice S1x1250000 ![0, 0] ei slices_S2x1250000_S1x1250000_0_0) shapeCasts_S1x1250000_S1250000

/-- The edges' targets: row 1 of the edge list. -/
def dst (ei : IVec S2x1250000 32) : IVec S1250000 32 :=
  shapeCast _ (extractStridedSlice S1x1250000 ![1, 0] ei slices_S2x1250000_S1x1250000_1_0) shapeCasts_S1x1250000_S1250000

/-- Each node's coefficient: the inverse square root of one plus the number of edges whose target it is. -/
def dinv (d : IVec S1250000 32) : FVec Ideal S100000 .f32 :=
  Host.rsqrt (addf (broadcastInDim S100000 ![] bcast_S_S100000 (constant S_ .f32 0x3F800000#32))
    (Host.scatterAdd scatter_S100000_S1250000x1_S1250000_n_0_0_1
      (broadcastInDim S100000 ![] bcast_S_S100000 (constant S_ .f32 0x00000000#32))
      (broadcastInDim S1250000x1 ![0] bcast_S1250000_S1250000x1_0 d)
      (broadcastInDim S1250000 ![] bcast_S_S1250000 (constant S_ .f32 0x3F800000#32))))

/-- An index vector made ready for a gather: a negative entry counts from the end (100000 is added), and the vector
    becomes a one-column array of start indices. -/
def wrap (v : IVec S1250000 32) : IVec S1250000x1 32 :=
  broadcastInDim S1250000x1 ![0] bcast_S1250000_S1250000x1_0
    (select (cmpi .slt v (broadcastInDim S1250000 ![] bcast_S_S1250000 (constantI S_ 32 0#32)))
      (addi v (broadcastInDim S1250000 ![] bcast_S_S1250000 (constantI S_ 32 100000#32))) v)

/-- Each edge's weight: the product of its two ends' coefficients. -/
def nrm (s d : IVec S1250000 32) (dv : FVec Ideal S100000 .f32) : FVec Ideal S1250000 .f32 :=
  mulf (Host.gather gather_S100000_S1250000x1_S1250000_n_0_n_n_0_1_1 dv (wrap s))
    (Host.gather gather_S100000_S1250000x1_S1250000_n_0_n_n_0_1_1 dv (wrap d))

/-- The neighbours' aggregate: the rows of `h` at the sources, each scaled by its edge's weight (given as a
    one-column array `nc`), summed into the rows at the targets. -/
def aggOf (h : FVec Ideal S100000x64 .f32) (s d : IVec S1250000 32) (nc : FVec Ideal S1250000x1 .f32) : FVec Ideal S100000x64 .f32 :=
  Host.scatterAdd scatter_S100000x64_S1250000x1_S1250000x64_1_0_0_1
    (broadcastInDim S100000x64 ![] bcast_S_S100000x64 (constant S_ .f32 0x00000000#32))
    (broadcastInDim S1250000x1 ![0] bcast_S1250000_S1250000x1_0 d)
    (mulf (Host.gather gather_S100000x64_S1250000x1_S1250000x64_1_0_n_n_0_1_164 h (wrap s))
      (broadcastInDim S1250000x64 ![0, 1] bcast_S1250000x1_S1250000x64_0_1 nc))

/-- The aggregate with the edge weights computed from the coefficients. -/
def agg (h : FVec Ideal S100000x64 .f32) (s d : IVec S1250000 32) (dv : FVec Ideal S100000 .f32) : FVec Ideal S100000x64 .f32 :=
  aggOf h s d (Cert.Spec.ecol (nrm s d dv))

/-- One layer: the rectified sum of the aggregate, the node's own transformed row times its squared coefficient, and the bias. -/
def layer (x : FVec Ideal S100000x64 .f32) (W : FVec Ideal S64x64 .f32) (b : FVec Ideal S64 .f32)
    (s d : IVec S1250000 32) (dv : FVec Ideal S100000 .f32) : FVec Ideal S100000x64 .f32 :=
  Cert.Spec.comb (agg (Cert.Spec.mm x W) s d dv) (Cert.Spec.mm x W) (Cert.Spec.col (mulf dv dv)) (Cert.Spec.row b)

/-- The whole network: two layers and the one-column head. -/
def out (x : FVec Ideal S100000x64 .f32) (ei : IVec S2x1250000 32) (W1 : FVec Ideal S64x64 .f32) (b1 : FVec Ideal S64 .f32)
    (W2 : FVec Ideal S64x64 .f32) (b2 : FVec Ideal S64 .f32) (Wo : FVec Ideal S64x1 .f32) (bo : FVec Ideal S1 .f32) :
    FVec Ideal S100000x1 .f32 :=
  Cert.Spec.lin (layer (layer x W1 b1 (src ei) (dst ei) (dinv (dst ei))) W2 b2 (src ei) (dst ei) (dinv (dst ei))) Wo (Cert.Spec.one bo)

end Cert.KernelIdeal.Val

end
-- ==== Proof.KHost.lean ====
/-
  What each stretch of host operations between the regions leaves in the buffers the regions and the later stretches
  read, from ANY contents `W` of the buffers before it: the operations' composed term at the buffers they write, the
  contents before at every other buffer.
-/
import proofs.«117982_j53755810677200_1_alg».proof.Proof.Gen.KernelIdeal.Launch
import proofs.«117982_j53755810677200_1_alg».proof.Proof.Val
import Idealize.ShloMosaic.Lib.StableHlo.Run

noncomputable section

namespace Cert.KernelIdeal.Val

open Cert.KernelIdeal Cert.KernelIdeal.Gen Idealize.ShloMosaic Idealize.ShloMosaic.TcCoe Idealize.ShloMosaic.StableHlo

variable (W : Valuation τ sig (Elt Ideal))

/-! ## The first stretch: the edge list split, the degrees, the coefficients -/

theorem h0_v1 : after (hostOps0 (F := Ideal)) W (Proc.devRef .tc main_v1) = src (W (Proc.devRef .tc main_arg1)) := by
  after_results_simp; rfl
theorem h0_v3 : after (hostOps0 (F := Ideal)) W (Proc.devRef .tc main_v3) = dst (W (Proc.devRef .tc main_arg1)) := by
  after_results_simp; rfl
theorem h0_v10 : after (hostOps0 (F := Ideal)) W (Proc.devRef .tc main_v10) = dinv (dst (W (Proc.devRef .tc main_arg1))) := by
  after_results_simp; rfl
theorem h0_v12 : after (hostOps0 (F := Ideal)) W (Proc.devRef .tc main_v12)
    = shapeCast S100000x1 (mulf (dinv (dst (W (Proc.devRef .tc main_arg1)))) (dinv (dst (W (Proc.devRef .tc main_arg1))))) shapeCasts_S100000_S100000x1 := by
  after_results_simp; rfl
theorem h0_keep_arg0 : after (hostOps0 (F := Ideal)) W (Proc.devRef .tc main_arg0) = W (Proc.devRef .tc main_arg0) := by
  after_results_simp
theorem h0_keep_arg2 : after (hostOps0 (F := Ideal)) W (Proc.devRef .tc main_arg2) = W (Proc.devRef .tc main_arg2) := by
  after_results_simp
theorem h0_keep_arg3 : after (hostOps0 (F := Ideal)) W (Proc.devRef .tc main_arg3) = W (Proc.devRef .tc main_arg3) := by
  after_results_simp
theorem h0_keep_arg4 : after (hostOps0 (F := Ideal)) W (Proc.devRef .tc main_arg4) = W (Proc.devRef .tc main_arg4) := by
  after_results_simp
theorem h0_keep_arg5 : after (hostOps0 (F := Ideal)) W (Proc.devRef .tc main_arg5) = W (Proc.devRef .tc main_arg5) := by
  after_results_simp
theorem h0_keep_arg6 : after (hostOps0 (F := Ideal)) W (Proc.devRef .tc main_arg6) = W (Proc.devRef .tc main_arg6) := by
  after_results_simp
theorem h0_keep_arg7 : after (hostOps0 (F := Ideal)) W (Proc.devRef .tc main_arg7) = W (Proc.devRef .tc main_arg7) := by
  after_results_simp

/-! ## The second stretch: the first layer's aggregate and its bias as a row -/

theorem h1_v41 : after (hostOps1 (F := Ideal)) W (Proc.devRef .tc main_v41)
    = aggOf (W (Proc.devRef .tc main_v13)) (W (Proc.devRef .tc main_v1)) (W (Proc.devRef .tc main_v3))
        (shapeCast S1250000x1 (nrm (W (Proc.devRef .tc main_v1)) (W (Proc.devRef .tc main_v3)) (W (Proc.devRef .tc main_v10))) shapeCasts_S1250000_S1250000x1) := by
  after_results_simp; rfl
theorem h1_v42 : after (hostOps1 (F := Ideal)) W (Proc.devRef .tc main_v42) = shapeCast S1x64 (W (Proc.devRef .tc main_arg3)) shapeCasts_S64_S1x64 := by
  after_results_simp; rfl
theorem h1_keep_v13 : after (hostOps1 (F := Ideal)) W (Proc.devRef .tc main_v13) = W (Proc.devRef .tc main_v13) := by
  after_results_simp
theorem h1_keep_v12 : after (hostOps1 (F := Ideal)) W (Proc.devRef .tc main_v12) = W (Proc.devRef .tc main_v12) := by
  after_results_simp
theorem h1_keep_v1 : after (hostOps1 (F := Ideal)) W (Proc.devRef .tc main_v1) = W (Proc.devRef .tc main_v1) := by
  after_results_simp
theorem h1_keep_v3 : after (hostOps1 (F := Ideal)) W (Proc.devRef .tc main_v3) = W (Proc.devRef .tc main_v3) := by
  after_results_simp
theorem h1_keep_v10 : after (hostOps1 (F := Ideal)) W (Proc.devRef .tc main_v10) = W (Proc.devRef .tc main_v10) := by
  after_results_simp
theorem h1_keep_arg4 : after (hostOps1 (F := Ideal)) W (Proc.devRef .tc main_arg4) = W (Proc.devRef .tc main_arg4) := by
  after_results_simp
theorem h1_keep_arg5 : after (hostOps1 (F := Ideal)) W (Proc.devRef .tc main_arg5) = W (Proc.devRef .tc main_arg5) := by
  after_results_simp
theorem h1_keep_arg6 : after (hostOps1 (F := Ideal)) W (Proc.devRef .tc main_arg6) = W (Proc.devRef .tc main_arg6) := by
  after_results_simp
theorem h1_keep_arg7 : after (hostOps1 (F := Ideal)) W (Proc.devRef .tc main_arg7) = W (Proc.devRef .tc main_arg7) := by
  after_results_simp

/-! ## The third stretch: the second layer's aggregate and its bias as a row -/

theorem h3_v72 : after (hostOps3 (F := Ideal)) W (Proc.devRef .tc main_v72)
    = aggOf (W (Proc.devRef .tc main_v44)) (W (Proc.devRef .tc main_v1)) (W (Proc.devRef .tc main_v3))
        (shapeCast S1250000x1 (nrm (W (Proc.devRef .tc main_v1)) (W (Proc.devRef .tc main_v3)) (W (Proc.devRef .tc main_v10))) shapeCasts_S1250000_S1250000x1) := by
  after_results_simp; rfl
theorem h3_v73 : after (hostOps3 (F := Ideal)) W (Proc.devRef .tc main_v73) = shapeCast S1x64 (W (Proc.devRef .tc main_arg5)) shapeCasts_S64_S1x64 := by
  after_results_simp; rfl
theorem h3_keep_v44 : after (hostOps3 (F := Ideal)) W (Proc.devRef .tc main_v44) = W (Proc.devRef .tc main_v44) := by
  after_results_simp
theorem h3_keep_v12 : after (hostOps3 (F := Ideal)) W (Proc.devRef .tc main_v12) = W (Proc.devRef .tc main_v12) := by
  after_results_simp
theorem h3_keep_arg6 : after (hostOps3 (F := Ideal)) W (Proc.devRef .tc main_arg6) = W (Proc.devRef .tc main_arg6) := by
  after_results_simp
theorem h3_keep_arg7 : after (hostOps3 (F := Ideal)) W (Proc.devRef .tc main_arg7) = W (Proc.devRef .tc main_arg7) := by
  after_results_simp

/-! ## The last stretch: the head's bias as a one-by-one array -/

theorem h4_v75 : after (hostOps4 (F := Ideal)) W (Proc.devRef .tc main_v75) = shapeCast S1x1 (W (Proc.devRef .tc main_arg7)) shapeCasts_S1_S1x1 := by
  after_results_simp; rfl
theorem h4_keep_v74 : after (hostOps4 (F := Ideal)) W (Proc.devRef .tc main_v74) = W (Proc.devRef .tc main_v74) := by
  after_results_simp
theorem h4_keep_arg6 : after (hostOps4 (F := Ideal)) W (Proc.devRef .tc main_arg6) = W (Proc.devRef .tc main_arg6) := by
  after_results_simp

end Cert.KernelIdeal.Val

end
-- ==== Proof.Layout.lean ====
/-
  Re-layings of a vector as a thin matrix, read index by index: a reshape keeps the row-major position, so a
  vector of n values reshaped to n rows of one column (or to one row of n columns) holds at (r, 0) (at (0, c))
  the vector's entry r (entry c); a broadcast along axis 0 into a one-column array does the same.
-/
import proofs.«117982_j53755810677200_1_alg».proof.Proof.Gen.KernelIdeal
import proofs.«117982_j53755810677200_1_alg».proof.Proof.Gen.ReferenceIdeal
import proofs.«117982_j53755810677200_1_alg».proof.Proof.Spec
import Idealize.ShloMosaic.Lib.Pipeline.Value
import Idealize.ShloMosaic.Lib.ValueIdx

noncomputable section

namespace Cert.KernelIdeal.Val
open Cert.KernelIdeal Cert.KernelIdeal.Gen Idealize.ShloMosaic Idealize.ShloMosaic.ValueIdx

/-- A vector of one value per edge reshaped to one column: row `r` holds entry `r` (position `r · 1 + 0`). -/
theorem shapeCast_ecol (v : FVec Ideal S1250000 .f32) : shapeCast S1250000x1 v shapeCasts_S1250000_S1250000x1 = Cert.Spec.ecol v := by
  funext i
  obtain ⟨p, q, rfl⟩ : ∃ (p : Fin 1250000) (q : Fin 1), i = ix2 p q := ⟨i 0, i 1, eq_ix2 i⟩
  refine shapeCast_apply v _ (ix2 p q) (ix1 p) ?_
  rw [Shape.rowMajor_val_one, Shape.rowMajor_val_two]
  show p.val = p.val * 1 + q.val
  omega

/-- A vector of one value per row reshaped to one column: row `r` holds entry `r`. -/
theorem shapeCast_col (v : FVec Ideal S100000 .f32) : shapeCast S100000x1 v shapeCasts_S100000_S100000x1 = Cert.Spec.col v := by
  funext i
  obtain ⟨p, q, rfl⟩ : ∃ (p : Fin 100000) (q : Fin 1), i = ix2 p q := ⟨i 0, i 1, eq_ix2 i⟩
  refine shapeCast_apply v _ (ix2 p q) (ix1 p) ?_
  rw [Shape.rowMajor_val_one, Shape.rowMajor_val_two]
  show p.val = p.val * 1 + q.val
  omega

/-- A vector of one value per column reshaped to one row: column `c` holds entry `c` (position `0 · 64 + c`). -/
theorem shapeCast_row (b : FVec Ideal S64 .f32) : shapeCast S1x64 b shapeCasts_S64_S1x64 = Cert.Spec.row b := by
  funext i
  obtain ⟨p, q, rfl⟩ : ∃ (p : Fin 1) (q : Fin 64), i = ix2 p q := ⟨i 0, i 1, eq_ix2 i⟩
  refine shapeCast_apply b _ (ix2 p q) (ix1 q) ?_
  rw [Shape.rowMajor_val_one, Shape.rowMajor_val_two]
  show q.val = p.val * 64 + q.val
  omega

/-- A one-element vector reshaped to a one-by-one array: its only entry. -/
theorem shapeCast_one (b : FVec Ideal S1 .f32) : shapeCast S1x1 b shapeCasts_S1_S1x1 = Cert.Spec.one b := by
  funext i
  obtain ⟨p, q, rfl⟩ : ∃ (p : Fin 1) (q : Fin 1), i = ix2 p q := ⟨i 0, i 1, eq_ix2 i⟩
  refine shapeCast_apply b _ (ix2 p q) (ix1 0) ?_
  rw [Shape.rowMajor_val_one, Shape.rowMajor_val_two]
  show (0 : Fin 1).val = p.val * 1 + q.val
  have : ((0 : Fin 1)).val = 0 := rfl
  omega
end Cert.KernelIdeal.Val

namespace Cert.ReferenceIdeal.Val
open Cert.ReferenceIdeal Cert.ReferenceIdeal.Gen Idealize.ShloMosaic Idealize.ShloMosaic.ValueIdx

/-- A vector of one value per edge broadcast along axis 0 into one column: row `r` holds entry `r`. -/
theorem bcast_ecol (v : FVec Ideal S1250000 .f32) : broadcastInDim S1250000x1 ![0] bcast_S1250000_S1250000x1_0 v = Cert.Spec.ecol v := by
  funext i
  obtain ⟨p, q, rfl⟩ : ∃ (p : Fin 1250000) (q : Fin 1), i = ix2 p q := ⟨i 0, i 1, eq_ix2 i⟩
  refine broadcastInDim_apply _ _ v (ix2 p q) (ix1 p) fun a => ?_
  match a with
  | ⟨0, _⟩ => rfl
end Cert.ReferenceIdeal.Val

end
-- ==== Proof.KChain.lean ====
/-
  The contents of the buffers the regions and the stretches of host operations read, boundary by boundary through the
  kernel program, each as a function of the eight argument arrays: a stretch's results are its operations' terms of
  what was there before; a region's output array is its dense stage's whole-array function of its input arrays as the
  region finds them; every other buffer is carried unchanged. At the last boundary the result buffer holds the
  network's value.
-/
import proofs.«117982_j53755810677200_1_alg».proof.Proof.Gen.KernelIdeal.Frame
import proofs.«117982_j53755810677200_1_alg».proof.Proof.KHost
import proofs.«117982_j53755810677200_1_alg».proof.Proof.Layout

noncomputable section

namespace Cert.KernelIdeal.Val

open Cert.KernelIdeal Cert.KernelIdeal.Gen Idealize.ShloMosaic Idealize.ShloMosaic.TcCoe Idealize.SL.Sem
open Idealize.ShloMosaic.Pipeline (Dat)

/-- Each region's output array after its write-backs, as the dense stage's function of the region's input arrays at
    whatever contents `V` the region is entered with. -/
structure RegionFacts : Prop where
  r0 : ∀ (V : (c : Dev nD) → (b : Ref sig .tc) → Buf (Elt Ideal) ((c : Thread nD τ).loc b)) (c : Dev nD),
    (dat0 (F := Ideal) V c).arrAt 2 cfg0.N = Cert.Spec.mm (V c main_arg0) (V c main_arg2)
  r1 : ∀ (V : (c : Dev nD) → (b : Ref sig .tc) → Buf (Elt Ideal) ((c : Thread nD τ).loc b)) (c : Dev nD),
    (dat1 (F := Ideal) V c).arrAt 4 cfg1.N = Cert.Spec.comb (V c main_v41) (V c main_v13) (V c main_v12) (V c main_v42)
  r2 : ∀ (V : (c : Dev nD) → (b : Ref sig .tc) → Buf (Elt Ideal) ((c : Thread nD τ).loc b)) (c : Dev nD),
    (dat2 (F := Ideal) V c).arrAt 2 cfg2.N = Cert.Spec.mm (V c main_v43) (V c main_arg4)
  r3 : ∀ (V : (c : Dev nD) → (b : Ref sig .tc) → Buf (Elt Ideal) ((c : Thread nD τ).loc b)) (c : Dev nD),
    (dat3 (F := Ideal) V c).arrAt 4 cfg3.N = Cert.Spec.comb (V c main_v72) (V c main_v44) (V c main_v12) (V c main_v73)
  r4 : ∀ (V : (c : Dev nD) → (b : Ref sig .tc) → Buf (Elt Ideal) ((c : Thread nD τ).loc b)) (c : Dev nD),
    (dat4 (F := Ideal) V c).arrAt 3 cfg4.N = Cert.Spec.lin (V c main_v74) (V c main_arg6) (V c main_v75)

variable (m : (ℓ : Loc nD τ sig) → Buf (Elt Ideal) ℓ) (ρ : Dev nD → PrngReg) (c : Dev nD)

/-! ## Boundary 1: after the first stretch -/

theorem b1_v1 : W1 m ρ c (Proc.devRef .tc main_v1) = src (m ((c : Thread nD τ).loc main_arg1)) := h0_v1 (W0 m ρ c)
theorem b1_v3 : W1 m ρ c (Proc.devRef .tc main_v3) = dst (m ((c : Thread nD τ).loc main_arg1)) := h0_v3 (W0 m ρ c)
theorem b1_v10 : W1 m ρ c (Proc.devRef .tc main_v10) = dinv (dst (m ((c : Thread nD τ).loc main_arg1))) := h0_v10 (W0 m ρ c)
theorem b1_v12 : W1 m ρ c (Proc.devRef .tc main_v12) = Cert.Spec.col (mulf (dinv (dst (m ((c : Thread nD τ).loc main_arg1)))) (dinv (dst (m ((c : Thread nD τ).loc main_arg1))))) :=
  (h0_v12 (W0 m ρ c)).trans (shapeCast_col _)
theorem b1_arg0 : W1 m ρ c (Proc.devRef .tc main_arg0) = (m ((c : Thread nD τ).loc main_arg0)) := h0_keep_arg0 (W0 m ρ c)
theorem b1_arg2 : W1 m ρ c (Proc.devRef .tc main_arg2) = (m ((c : Thread nD τ).loc main_arg2)) := h0_keep_arg2 (W0 m ρ c)
theorem b1_arg3 : W1 m ρ c (Proc.devRef .tc main_arg3) = (m ((c : Thread nD τ).loc main_arg3)) := h0_keep_arg3 (W0 m ρ c)
theorem b1_arg4 : W1 m ρ c (Proc.devRef .tc main_arg4) = (m ((c : Thread nD τ).loc main_arg4)) := h0_keep_arg4 (W0 m ρ c)
theorem b1_arg5 : W1 m ρ c (Proc.devRef .tc main_arg5) = (m ((c : Thread nD τ).loc main_arg5)) := h0_keep_arg5 (W0 m ρ c)
theorem b1_arg6 : W1 m ρ c (Proc.devRef .tc main_arg6) = (m ((c : Thread nD τ).loc main_arg6)) := h0_keep_arg6 (W0 m ρ c)
theorem b1_arg7 : W1 m ρ c (Proc.devRef .tc main_arg7) = (m ((c : Thread nD τ).loc main_arg7)) := h0_keep_arg7 (W0 m ρ c)

/-! ## Boundary 2: after region 0 (the first product) -/

theorem b2_v13 (H : RegionFacts) : W2 m ρ c (Proc.devRef .tc main_v13) = Cert.Spec.mm (m ((c : Thread nD τ).loc main_arg0)) (m ((c : Thread nD τ).loc main_arg2)) :=
  (W2_arr m ρ c 2).trans ((H.r0 (V1 m ρ) c).trans (by
    rw [show V1 m ρ c main_arg0 = (m ((c : Thread nD τ).loc main_arg0)) from b1_arg0 m ρ c, show V1 m ρ c main_arg2 = (m ((c : Thread nD τ).loc main_arg2)) from b1_arg2 m ρ c]))
theorem b2_v1 : W2 m ρ c (Proc.devRef .tc main_v1) = src (m ((c : Thread nD τ).loc main_arg1)) := (W2_of_ne m ρ c main_v1 (by decide)).trans (b1_v1 m ρ c)
theorem b2_v3 : W2 m ρ c (Proc.devRef .tc main_v3) = dst (m ((c : Thread nD τ).loc main_arg1)) := (W2_of_ne m ρ c main_v3 (by decide)).trans (b1_v3 m ρ c)
theorem b2_v10 : W2 m ρ c (Proc.devRef .tc main_v10) = dinv (dst (m ((c : Thread nD τ).loc main_arg1))) := (W2_of_ne m ρ c main_v10 (by decide)).trans (b1_v10 m ρ c)
theorem b2_v12 : W2 m ρ c (Proc.devRef .tc main_v12) = (Cert.Spec.col (mulf (dinv (dst (m ((c : Thread nD τ).loc main_arg1)))) (dinv (dst (m ((c : Thread nD τ).loc main_arg1)))))) := (W2_of_ne m ρ c main_v12 (by decide)).trans (b1_v12 m ρ c)
theorem b2_arg3 : W2 m ρ c (Proc.devRef .tc main_arg3) = (m ((c : Thread nD τ).loc main_arg3)) := (W2_of_ne m ρ c main_arg3 (by decide)).trans (b1_arg3 m ρ c)
theorem b2_arg4 : W2 m ρ c (Proc.devRef .tc main_arg4) = (m ((c : Thread nD τ).loc main_arg4)) := (W2_of_ne m ρ c main_arg4 (by decide)).trans (b1_arg4 m ρ c)
theorem b2_arg5 : W2 m ρ c (Proc.devRef .tc main_arg5) = (m ((c : Thread nD τ).loc main_arg5)) := (W2_of_ne m ρ c main_arg5 (by decide)).trans (b1_arg5 m ρ c)
theorem b2_arg6 : W2 m ρ c (Proc.devRef .tc main_arg6) = (m ((c : Thread nD τ).loc main_arg6)) := (W2_of_ne m ρ c main_arg6 (by decide)).trans (b1_arg6 m ρ c)
theorem b2_arg7 : W2 m ρ c (Proc.devRef .tc main_arg7) = (m ((c : Thread nD τ).loc main_arg7)) := (W2_of_ne m ρ c main_arg7 (by decide)).trans (b1_arg7 m ρ c)

/-! ## Boundary 3: after the second stretch (the first layer's aggregate) -/

theorem b3_v41 (H : RegionFacts) : W3 m ρ c (Proc.devRef .tc main_v41) = agg (Cert.Spec.mm (m ((c : Thread nD τ).loc main_arg0)) (m ((c : Thread nD τ).loc main_arg2))) (src (m ((c : Thread nD τ).loc main_arg1))) (dst (m ((c : Thread nD τ).loc main_arg1))) (dinv (dst (m ((c : Thread nD τ).loc main_arg1)))) :=
  (h1_v41 (W2 m ρ c)).trans (by
    rw [b2_v13 m ρ c H, b2_v1 m ρ c, b2_v3 m ρ c, b2_v10 m ρ c, shapeCast_ecol]; rfl)
theorem b3_v42 : W3 m ρ c (Proc.devRef .tc main_v42) = Cert.Spec.row (m ((c : Thread nD τ).loc main_arg3)) :=
  (h1_v42 (W2 m ρ c)).trans (by rw [b2_arg3 m ρ c, shapeCast_row])
theorem b3_v13 (H : RegionFacts) : W3 m ρ c (Proc.devRef .tc main_v13) = (Cert.Spec.mm (m ((c : Thread nD τ).loc main_arg0)) (m ((c : Thread nD τ).loc main_arg2))) := (h1_keep_v13 (W2 m ρ c)).trans (b2_v13 m ρ c H)
theorem b3_v12 : W3 m ρ c (Proc.devRef .tc main_v12) = (Cert.Spec.col (mulf (dinv (dst (m ((c : Thread nD τ).loc main_arg1)))) (dinv (dst (m ((c : Thread nD τ).loc main_arg1)))))) := (h1_keep_v12 (W2 m ρ c)).trans (b2_v12 m ρ c)
theorem b3_v1 : W3 m ρ c (Proc.devRef .tc main_v1) = src (m ((c : Thread nD τ).loc main_arg1)) := (h1_keep_v1 (W2 m ρ c)).trans (b2_v1 m ρ c)
theorem b3_v3 : W3 m ρ c (Proc.devRef .tc main_v3) = dst (m ((c : Thread nD τ).loc main_arg1)) := (h1_keep_v3 (W2 m ρ c)).trans (b2_v3 m ρ c)
theorem b3_v10 : W3 m ρ c (Proc.devRef .tc main_v10) = dinv (dst (m ((c : Thread nD τ).loc main_arg1))) := (h1_keep_v10 (W2 m ρ c)).trans (b2_v10 m ρ c)
theorem b3_arg4 : W3 m ρ c (Proc.devRef .tc main_arg4) = (m ((c : Thread nD τ).loc main_arg4)) := (h1_keep_arg4 (W2 m ρ c)).trans (b2_arg4 m ρ c)
theorem b3_arg5 : W3 m ρ c (Proc.devRef .tc main_arg5) = (m ((c : Thread nD τ).loc main_arg5)) := (h1_keep_arg5 (W2 m ρ c)).trans (b2_arg5 m ρ c)
theorem b3_arg6 : W3 m ρ c (Proc.devRef .tc main_arg6) = (m ((c : Thread nD τ).loc main_arg6)) := (h1_keep_arg6 (W2 m ρ c)).trans (b2_arg6 m ρ c)
theorem b3_arg7 : W3 m ρ c (Proc.devRef .tc main_arg7) = (m ((c : Thread nD τ).loc main_arg7)) := (h1_keep_arg7 (W2 m ρ c)).trans (b2_arg7 m ρ c)

/-! ## Boundary 4: after region 1 (the first layer's rectified sum) -/

theorem b4_v43 (H : RegionFacts) : W4 m ρ c (Proc.devRef .tc main_v43) = (layer (m ((c : Thread nD τ).loc main_arg0)) (m ((c : Thread nD τ).loc main_arg2)) (m ((c : Thread nD τ).loc main_arg3)) (src (m ((c : Thread nD τ).loc main_arg1))) (dst (m ((c : Thread nD τ).loc main_arg1))) (dinv (dst (m ((c : Thread nD τ).loc main_arg1))))) :=
  (W4_arr m ρ c 4).trans ((H.r1 (V3 m ρ) c).trans (by
    rw [show V3 m ρ c main_v41 = _ from b3_v41 m ρ c H, show V3 m ρ c main_v13 = _ from b3_v13 m ρ c H,
      show V3 m ρ c main_v12 = _ from b3_v12 m ρ c, show V3 m ρ c main_v42 = _ from b3_v42 m ρ c]; rfl))
theorem b4_v12 : W4 m ρ c (Proc.devRef .tc main_v12) = (Cert.Spec.col (mulf (dinv (dst (m ((c : Thread nD τ).loc main_arg1)))) (dinv (dst (m ((c : Thread nD τ).loc main_arg1)))))) :=
  (W4_arr m ρ c 2).trans (((dat1 (V3 m ρ) c).arrAt_in 2 rfl _).trans ((A_eq1 (V3 m ρ) c 2).trans (b3_v12 m ρ c)))
theorem b4_v1 : W4 m ρ c (Proc.devRef .tc main_v1) = src (m ((c : Thread nD τ).loc main_arg1)) := (W4_of_ne m ρ c main_v1 (by decide)).trans (b3_v1 m ρ c)
theorem b4_v3 : W4 m ρ c (Proc.devRef .tc main_v3) = dst (m ((c : Thread nD τ).loc main_arg1)) := (W4_of_ne m ρ c main_v3 (by decide)).trans (b3_v3 m ρ c)
theorem b4_v10 : W4 m ρ c (Proc.devRef .tc main_v10) = dinv (dst (m ((c : Thread nD τ).loc main_arg1))) := (W4_of_ne m ρ c main_v10 (by decide)).trans (b3_v10 m ρ c)
theorem b4_arg4 : W4 m ρ c (Proc.devRef .tc main_arg4) = (m ((c : Thread nD τ).loc main_arg4)) := (W4_of_ne m ρ c main_arg4 (by decide)).trans (b3_arg4 m ρ c)
theorem b4_arg5 : W4 m ρ c (Proc.devRef .tc main_arg5) = (m ((c : Thread nD τ).loc main_arg5)) := (W4_of_ne m ρ c main_arg5 (by decide)).trans (b3_arg5 m ρ c)
theorem b4_arg6 : W4 m ρ c (Proc.devRef .tc main_arg6) = (m ((c : Thread nD τ).loc main_arg6)) := (W4_of_ne m ρ c main_arg6 (by decide)).trans (b3_arg6 m ρ c)
theorem b4_arg7 : W4 m ρ c (Proc.devRef .tc main_arg7) = (m ((c : Thread nD τ).loc main_arg7)) := (W4_of_ne m ρ c main_arg7 (by decide)).trans (b3_arg7 m ρ c)

/-! ## Boundary 5: after region 2 (the second product) -/

theorem b5_v44 (H : RegionFacts) : W5 m ρ c (Proc.devRef .tc main_v44) = (Cert.Spec.mm (layer (m ((c : Thread nD τ).loc main_arg0)) (m ((c : Thread nD τ).loc main_arg2)) (m ((c : Thread nD τ).loc main_arg3)) (src (m ((c : Thread nD τ).loc main_arg1))) (dst (m ((c : Thread nD τ).loc main_arg1))) (dinv (dst (m ((c : Thread nD τ).loc main_arg1))))) (m ((c : Thread nD τ).loc main_arg4))) :=
  (W5_arr m ρ c 2).trans ((H.r2 (V4 m ρ) c).trans (by
    rw [show V4 m ρ c main_v43 = _ from b4_v43 m ρ c H, show V4 m ρ c main_arg4 = _ from b4_arg4 m ρ c]))
theorem b5_v12 : W5 m ρ c (Proc.devRef .tc main_v12) = (Cert.Spec.col (mulf (dinv (dst (m ((c : Thread nD τ).loc main_arg1)))) (dinv (dst (m ((c : Thread nD τ).loc main_arg1)))))) := (W5_of_ne m ρ c main_v12 (by decide)).trans (b4_v12 m ρ c)
theorem b5_v1 : W5 m ρ c (Proc.devRef .tc main_v1) = src (m ((c : Thread nD τ).loc main_arg1)) := (W5_of_ne m ρ c main_v1 (by decide)).trans (b4_v1 m ρ c)
theorem b5_v3 : W5 m ρ c (Proc.devRef .tc main_v3) = dst (m ((c : Thread nD τ).loc main_arg1)) := (W5_of_ne m ρ c main_v3 (by decide)).trans (b4_v3 m ρ c)
theorem b5_v10 : W5 m ρ c (Proc.devRef .tc main_v10) = dinv (dst (m ((c : Thread nD τ).loc main_arg1))) := (W5_of_ne m ρ c main_v10 (by decide)).trans (b4_v10 m ρ c)
theorem b5_arg5 : W5 m ρ c (Proc.devRef .tc main_arg5) = (m ((c : Thread nD τ).loc main_arg5)) := (W5_of_ne m ρ c main_arg5 (by decide)).trans (b4_arg5 m ρ c)
theorem b5_arg6 : W5 m ρ c (Proc.devRef .tc main_arg6) = (m ((c : Thread nD τ).loc main_arg6)) := (W5_of_ne m ρ c main_arg6 (by decide)).trans (b4_arg6 m ρ c)
theorem b5_arg7 : W5 m ρ c (Proc.devRef .tc main_arg7) = (m ((c : Thread nD τ).loc main_arg7)) := (W5_of_ne m ρ c main_arg7 (by decide)).trans (b4_arg7 m ρ c)

/-! ## Boundary 6: after the third stretch (the second layer's aggregate) -/

theorem b6_v72 (H : RegionFacts) : W6 m ρ c (Proc.devRef .tc main_v72) = agg (Cert.Spec.mm (layer (m ((c : Thread nD τ).loc main_arg0)) (m ((c : Thread nD τ).loc main_arg2)) (m ((c : Thread nD τ).loc main_arg3)) (src (m ((c : Thread nD τ).loc main_arg1))) (dst (m ((c : Thread nD τ).loc main_arg1))) (dinv (dst (m ((c : Thread nD τ).loc main_arg1))))) (m ((c : Thread nD τ).loc main_arg4))) (src (m ((c : Thread nD τ).loc main_arg1))) (dst (m ((c : Thread nD τ).loc main_arg1))) (dinv (dst (m ((c : Thread nD τ).loc main_arg1)))) :=
  (h3_v72 (W5 m ρ c)).trans (by
    rw [b5_v44 m ρ c H, b5_v1 m ρ c, b5_v3 m ρ c, b5_v10 m ρ c, shapeCast_ecol]; rfl)
theorem b6_v73 : W6 m ρ c (Proc.devRef .tc main_v73) = Cert.Spec.row (m ((c : Thread nD τ).loc main_arg5)) :=
  (h3_v73 (W5 m ρ c)).trans (by rw [b5_arg5 m ρ c, shapeCast_row])
theorem b6_v44 (H : RegionFacts) : W6 m ρ c (Proc.devRef .tc main_v44) = (Cert.Spec.mm (layer (m ((c : Thread nD τ).loc main_arg0)) (m ((c : Thread nD τ).loc main_arg2)) (m ((c : Thread nD τ).loc main_arg3)) (src (m ((c : Thread nD τ).loc main_arg1))) (dst (m ((c : Thread nD τ).loc main_arg1))) (dinv (dst (m ((c : Thread nD τ).loc main_arg1))))) (m ((c : Thread nD τ).loc main_arg4))) := (h3_keep_v44 (W5 m ρ c)).trans (b5_v44 m ρ c H)
theorem b6_v12 : W6 m ρ c (Proc.devRef .tc main_v12) = (Cert.Spec.col (mulf (dinv (dst (m ((c : Thread nD τ).loc main_arg1)))) (dinv (dst (m ((c : Thread nD τ).loc main_arg1)))))) := (h3_keep_v12 (W5 m ρ c)).trans (b5_v12 m ρ c)
theorem b6_arg6 : W6 m ρ c (Proc.devRef .tc main_arg6) = (m ((c : Thread nD τ).loc main_arg6)) := (h3_keep_arg6 (W5 m ρ c)).trans (b5_arg6 m ρ c)
theorem b6_arg7 : W6 m ρ c (Proc.devRef .tc main_arg7) = (m ((c : Thread nD τ).loc main_arg7)) := (h3_keep_arg7 (W5 m ρ c)).trans (b5_arg7 m ρ c)

/-! ## Boundary 7: after region 3 (the second layer's rectified sum) -/

theorem b7_v74 (H : RegionFacts) : W7 m ρ c (Proc.devRef .tc main_v74) = (layer (layer (m ((c : Thread nD τ).loc main_arg0)) (m ((c : Thread nD τ).loc main_arg2)) (m ((c : Thread nD τ).loc main_arg3)) (src (m ((c : Thread nD τ).loc main_arg1))) (dst (m ((c : Thread nD τ).loc main_arg1))) (dinv (dst (m ((c : Thread nD τ).loc main_arg1))))) (m ((c : Thread nD τ).loc main_arg4)) (m ((c : Thread nD τ).loc main_arg5)) (src (m ((c : Thread nD τ).loc main_arg1))) (dst (m ((c : Thread nD τ).loc main_arg1))) (dinv (dst (m ((c : Thread nD τ).loc main_arg1))))) :=
  (W7_arr m ρ c 4).trans ((H.r3 (V6 m ρ) c).trans (by
    rw [show V6 m ρ c main_v72 = _ from b6_v72 m ρ c H, show V6 m ρ c main_v44 = _ from b6_v44 m ρ c H,
      show V6 m ρ c main_v12 = _ from b6_v12 m ρ c, show V6 m ρ c main_v73 = _ from b6_v73 m ρ c]; rfl))
theorem b7_arg6 : W7 m ρ c (Proc.devRef .tc main_arg6) = (m ((c : Thread nD τ).loc main_arg6)) := (W7_of_ne m ρ c main_arg6 (by decide)).trans (b6_arg6 m ρ c)
theorem b7_arg7 : W7 m ρ c (Proc.devRef .tc main_arg7) = (m ((c : Thread nD τ).loc main_arg7)) := (W7_of_ne m ρ c main_arg7 (by decide)).trans (b6_arg7 m ρ c)

/-! ## Boundary 8: after the last stretch -/

theorem b8_v75 : W8 m ρ c (Proc.devRef .tc main_v75) = Cert.Spec.one (m ((c : Thread nD τ).loc main_arg7)) :=
  (h4_v75 (W7 m ρ c)).trans (by rw [b7_arg7 m ρ c, shapeCast_one])
theorem b8_v74 (H : RegionFacts) : W8 m ρ c (Proc.devRef .tc main_v74) = (layer (layer (m ((c : Thread nD τ).loc main_arg0)) (m ((c : Thread nD τ).loc main_arg2)) (m ((c : Thread nD τ).loc main_arg3)) (src (m ((c : Thread nD τ).loc main_arg1))) (dst (m ((c : Thread nD τ).loc main_arg1))) (dinv (dst (m ((c : Thread nD τ).loc main_arg1))))) (m ((c : Thread nD τ).loc main_arg4)) (m ((c : Thread nD τ).loc main_arg5)) (src (m ((c : Thread nD τ).loc main_arg1))) (dst (m ((c : Thread nD τ).loc main_arg1))) (dinv (dst (m ((c : Thread nD τ).loc main_arg1))))) := (h4_keep_v74 (W7 m ρ c)).trans (b7_v74 m ρ c H)
theorem b8_arg6 : W8 m ρ c (Proc.devRef .tc main_arg6) = (m ((c : Thread nD τ).loc main_arg6)) := (h4_keep_arg6 (W7 m ρ c)).trans (b7_arg6 m ρ c)

/-! ## Boundary 9: after region 4 (the head): the result buffer -/

theorem result_eq (H : RegionFacts) : W9 m ρ c (Proc.devRef .tc main_v76)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W9_arr m ρ c 3).trans ((H.r4 (V8 m ρ) c).trans (by
    rw [show V8 m ρ c main_v74 = _ from b8_v74 m ρ c H, show V8 m ρ c main_arg6 = _ from b8_arg6 m ρ c,
      show V8 m ρ c main_v75 = _ from b8_v75 m ρ c]; rfl))

end Cert.KernelIdeal.Val

end
-- ==== Proof.RefVal.lean ====
/-
  The reference program's result, read back as one composed term of its arguments, is the same network value as the
  kernel program's: its two products and its head are the dense stages' whole-array functions, its rectified sums
  the combine stage, its column broadcast of the edge weights the same re-laying, and every other operation (the
  edge list's split, the degrees, the gathers along the edges and the sums into the targets) the very same
  operation on both sides.
-/
import proofs.«117982_j53755810677200_1_alg».proof.Proof.Gen.ReferenceIdeal.Run
import proofs.«117982_j53755810677200_1_alg».proof.Proof.Val
import proofs.«117982_j53755810677200_1_alg».proof.Proof.Layout

noncomputable section

namespace Cert.ReferenceIdeal.Val

open Cert.ReferenceIdeal Cert.ReferenceIdeal.Gen Idealize.ShloMosaic Idealize.ShloMosaic.TcCoe Idealize.SL.Sem

/-- The reference's three dense forms as the specification's functions. -/
structure RefFacts : Prop where
  mm : ∀ (x : FVec Ideal S100000x64 .f32) (w : FVec Ideal S64x64 .f32),
    Host.dotGeneral (F := Ideal) dot_S100000x64_S64x64_S100000x64_1_0_0_1_n_n none x w = Cert.Spec.mm x w
  comb : ∀ (agg h : FVec Ideal S100000x64 .f32) (d : FVec Ideal S100000 .f32) (b : FVec Ideal S64 .f32),
    maximumf (addf (addf agg (mulf h (broadcastInDim S100000x64 ![0, 1] bcast_S100000x1_S100000x64_0_1
        (broadcastInDim S100000x1 ![0] bcast_S100000_S100000x1_0 d))))
      (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))
    = Cert.Spec.comb agg h (Cert.Spec.col d) (Cert.Spec.row b)
  lin : ∀ (h : FVec Ideal S100000x64 .f32) (w : FVec Ideal S64x1 .f32) (b : FVec Ideal S1 .f32),
    addf (Host.dotGeneral (F := Ideal) dot_S100000x64_S64x1_S100000x1_1_0_0_1_n_n none h w)
      (broadcastInDim S100000x1 ![0, 1] bcast_S1x1_S100000x1_0_1 (broadcastInDim S1x1 ![1] bcast_S1_S1x1_1 b))
    = Cert.Spec.lin h w (Cert.Spec.one b)

/-! ## The reference's operations, grouped as the kernel program's value is -/

/-- The edges' sources: row 0 of the edge list. -/
def rsrc (ei : IVec S2x1250000 32) : IVec S1250000 32 :=
  shapeCast _ (extractStridedSlice S1x1250000 ![0, 0] ei slices_S2x1250000_S1x1250000_0_0) shapeCasts_S1x1250000_S1250000

/-- The edges' targets: row 1 of the edge list. -/
def rdst (ei : IVec S2x1250000 32) : IVec S1250000 32 :=
  shapeCast _ (extractStridedSlice S1x1250000 ![1, 0] ei slices_S2x1250000_S1x1250000_1_0) shapeCasts_S1x1250000_S1250000

/-- Each node's coefficient. -/
def rdinv (d : IVec S1250000 32) : FVec Ideal S100000 .f32 :=
  Host.rsqrt (addf (broadcastInDim S100000 ![] bcast_S_S100000 (constant S_ .f32 0x3F800000#32))
    (Host.scatterAdd scatter_S100000_S1250000x1_S1250000_n_0_0_1
      (broadcastInDim S100000 ![] bcast_S_S100000 (constant S_ .f32 0x00000000#32))
      (broadcastInDim S1250000x1 ![0] bcast_S1250000_S1250000x1_0 d)
      (broadcastInDim S1250000 ![] bcast_S_S1250000 (constant S_ .f32 0x3F800000#32))))

/-- An index vector made ready for a gather. -/
def rwrap (v : IVec S1250000 32) : IVec S1250000x1 32 :=
  broadcastInDim S1250000x1 ![0] bcast_S1250000_S1250000x1_0
    (select (cmpi .slt v (broadcastInDim S1250000 ![] bcast_S_S1250000 (constantI S_ 32 0#32)))
      (addi v (broadcastInDim S1250000 ![] bcast_S_S1250000 (constantI S_ 32 100000#32))) v)

/-- Each edge's weight. -/
def rnrm (s d : IVec S1250000 32) (dv : FVec Ideal S100000 .f32) : FVec Ideal S1250000 .f32 :=
  mulf (Host.gather gather_S100000_S1250000x1_S1250000_n_0_n_n_0_1_1 dv (rwrap s))
    (Host.gather gather_S100000_S1250000x1_S1250000_n_0_n_n_0_1_1 dv (rwrap d))

/-- The neighbours' aggregate from the edge weights as a one-column array. -/
def raggOf (h : FVec Ideal S100000x64 .f32) (s d : IVec S1250000 32) (nc : FVec Ideal S1250000x1 .f32) : FVec Ideal S100000x64 .f32 :=
  Host.scatterAdd scatter_S100000x64_S1250000x1_S1250000x64_1_0_0_1
    (broadcastInDim S100000x64 ![] bcast_S_S100000x64 (constant S_ .f32 0x00000000#32))
    (broadcastInDim S1250000x1 ![0] bcast_S1250000_S1250000x1_0 d)
    (mulf (Host.gather gather_S100000x64_S1250000x1_S1250000x64_1_0_n_n_0_1_164 h (rwrap s))
      (broadcastInDim S1250000x64 ![0, 1] bcast_S1250000x1_S1250000x64_0_1 nc))

/-- One layer as the reference spells it (the coefficients recomputed inside). -/
def rlayer (x : FVec Ideal S100000x64 .f32) (W : FVec Ideal S64x64 .f32) (b : FVec Ideal S64 .f32)
    (s d : IVec S1250000 32) : FVec Ideal S100000x64 .f32 :=
  maximumf (addf (addf
      (raggOf (Host.dotGeneral dot_S100000x64_S64x64_S100000x64_1_0_0_1_n_n none x W) s d
        (broadcastInDim S1250000x1 ![0] bcast_S1250000_S1250000x1_0 (rnrm s d (rdinv d))))
      (mulf (Host.dotGeneral dot_S100000x64_S64x64_S100000x64_1_0_0_1_n_n none x W)
        (broadcastInDim S100000x64 ![0, 1] bcast_S100000x1_S100000x64_0_1
          (broadcastInDim S100000x1 ![0] bcast_S100000_S100000x1_0 (mulf (rdinv d) (rdinv d))))))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The whole reference. -/
def rout (x : FVec Ideal S100000x64 .f32) (ei : IVec S2x1250000 32) (W1 : FVec Ideal S64x64 .f32) (b1 : FVec Ideal S64 .f32)
    (W2 : FVec Ideal S64x64 .f32) (b2 : FVec Ideal S64 .f32) (Wo : FVec Ideal S64x1 .f32) (bo : FVec Ideal S1 .f32) :
    FVec Ideal S100000x1 .f32 :=
  addf (Host.dotGeneral dot_S100000x64_S64x1_S100000x1_1_0_0_1_n_n none
      (rlayer (rlayer x W1 b1 (rsrc ei) (rdst ei)) W2 b2 (rsrc ei) (rdst ei)) Wo)
    (broadcastInDim S100000x1 ![0, 1] bcast_S1x1_S100000x1_0_1 (broadcastInDim S1x1 ![1] bcast_S1_S1x1_1 bo))

/-- The run's composed term is that grouping, operation for operation. -/
theorem res_eq_rout (m : (ℓ : Loc nD τ sig) → Buf (Elt Ideal) ℓ) (c : Dev nD) :
    Cert.ReferenceIdeal.Value.res_main_v97 (F := Ideal) m c
      = rout (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v97
  rfl

/-! ## The two spellings agree -/

theorem rsrc_eq (ei : IVec S2x1250000 32) : rsrc ei = Cert.KernelIdeal.Val.src ei := rfl
theorem rdst_eq (ei : IVec S2x1250000 32) : rdst ei = Cert.KernelIdeal.Val.dst ei := rfl
theorem rdinv_eq (d : IVec S1250000 32) : rdinv d = Cert.KernelIdeal.Val.dinv d := rfl
theorem rwrap_eq (v : IVec S1250000 32) : rwrap v = Cert.KernelIdeal.Val.wrap v := rfl
theorem rnrm_eq (s d : IVec S1250000 32) (dv : FVec Ideal S100000 .f32) : rnrm s d dv = Cert.KernelIdeal.Val.nrm s d dv := rfl
theorem raggOf_eq (h : FVec Ideal S100000x64 .f32) (s d : IVec S1250000 32) (nc : FVec Ideal S1250000x1 .f32) :
    raggOf h s d nc = Cert.KernelIdeal.Val.aggOf h s d nc := rfl

/-- One layer of the reference is one layer of the kernel program's value, at the same coefficients. -/
theorem rlayer_eq (R : RefFacts) (x : FVec Ideal S100000x64 .f32) (W : FVec Ideal S64x64 .f32) (b : FVec Ideal S64 .f32)
    (s d : IVec S1250000 32) :
    rlayer x W b s d = Cert.KernelIdeal.Val.layer x W b s d (Cert.KernelIdeal.Val.dinv d) := by
  unfold rlayer
  rw [R.mm x W]
  refine (R.comb _ _ _ _).trans ?_
  rw [bcast_ecol, raggOf_eq, rnrm_eq, rdinv_eq]
  rfl

/-- The whole reference is the kernel program's value. -/
theorem rout_eq (R : RefFacts) (x : FVec Ideal S100000x64 .f32) (ei : IVec S2x1250000 32) (W1 : FVec Ideal S64x64 .f32) (b1 : FVec Ideal S64 .f32)
    (W2 : FVec Ideal S64x64 .f32) (b2 : FVec Ideal S64 .f32) (Wo : FVec Ideal S64x1 .f32) (bo : FVec Ideal S1 .f32) :
    rout x ei W1 b1 W2 b2 Wo bo = Cert.KernelIdeal.Val.out x ei W1 b1 W2 b2 Wo bo := by
  unfold rout
  refine (R.lin _ _ _).trans ?_
  rw [rlayer_eq R, rlayer_eq R, rsrc_eq, rdst_eq]
  rfl

end Cert.ReferenceIdeal.Val

end
-- ==== Proof.RegionMm.lean ====
/-
  The two dense products of the kernel, each a pipelined region over 20 points: at point t the body multiplies rows
  5000 t … 5000 t + 4999 of a [100000,64] array by a whole [64,64] weight array into a zero accumulator and writes the
  [5000,64] result back as block t of the output. Read on the extended reals, entry (p, q) of a point's result is the sum
  over the contracted axis k of the block's (p, k) entry times the weight's (k, q) entry; the 20 blocks tile the output,
  so after the region the output array is the whole-array product, row r, column c the sum over k of x[r,k] * w[k,c].
-/
import proofs.«117982_j53755810677200_1_alg».proof.Proof.Gen.KernelIdeal.Frame
import proofs.«117982_j53755810677200_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The origin of a block's staging buffer: both offsets zero. -/
theorem mm_origin : (![0, 0] : Fin 2 → Nat) = fun _ => 0 := funext fun a => by fin_cases a <;> rfl

/-- The body product's dimension numbers: the left block's axis 1 contracted against the weight's axis 0. -/
abbrev mmDims : DotDims S5000x64 S64x64 S5000x64 := dot_S5000x64_S64x64_S5000x64_1_0_0_1_n_n

/-- The left operand's row is the result's row (a non-contracting axis reads the result index). -/
theorem mm_lhs_row (i : S5000x64.Idx) (q : mmDims.contr.Idx) : (mmDims.lhsIdx i q 0).val = (i 0).val := by
  unfold DotDims.lhsIdx
  rw [dif_neg (show ¬(0 : Fin S5000x64.rank) ∈ mmDims.lhsBatch by decide),
    dif_pos (show (0 : Fin S5000x64.rank) ∈ mmDims.lhsNonContracting by decide)]
  rfl

/-- The left operand's column is the contraction position. -/
theorem mm_lhs_col (i : S5000x64.Idx) (q : mmDims.contr.Idx) : (mmDims.lhsIdx i q 1).val = (q ⟨0, by decide⟩).val :=
  mmDims.lhsIdx_val_of_single rfl i q

/-- The right operand's row is the contraction position. -/
theorem mm_rhs_row (i : S5000x64.Idx) (q : mmDims.contr.Idx) : (mmDims.rhsIdx i q 0).val = (q ⟨0, by decide⟩).val :=
  mmDims.rhsIdx_val_of_single rfl i q

/-- The right operand's column is the result's column. -/
theorem mm_rhs_col (i : S5000x64.Idx) (q : mmDims.contr.Idx) : (mmDims.rhsIdx i q 1).val = (i 1).val := by
  unfold DotDims.rhsIdx
  rw [dif_neg (show ¬(1 : Fin S64x64.rank) ∈ mmDims.rhsBatch by decide),
    dif_pos (show (1 : Fin S64x64.rank) ∈ mmDims.rhsNonContracting by decide)]
  rfl

/-- The block product into a zero accumulator at entry (p, q): the sum over the contraction shape's one axis,
    re-indexed by its coordinate k, of the left entry (p, k) times the right entry (k, q). -/
theorem mm_block (a : FVec Ideal S5000x64 .bf16) (b : FVec Ideal S64x64 .bf16) (p : Fin 5000) (q : Fin 64) :
    matmul (F := Ideal) mmDims none a b (constant (F := Ideal) S5000x64 .f32 0x00000000#32) (ix2 p q)
      = ∑ k : Fin 64, a (ix2 p k) * b (ix2 k q) := by
  refine (Ideal.matmul_constant_zero_apply mmDims none a b (ix2 p q)).trans ?_
  rw [← Equiv.sum_comp (contrEquiv1 mmDims 64 rfl rfl).symm]
  refine Finset.sum_congr rfl fun k _ => ?_
  have hk := contrEquiv1_symm_val mmDims 64 rfl rfl k
  have el : mmDims.lhsIdx (ix2 p q) ((contrEquiv1 mmDims 64 rfl rfl).symm k) = ix2 p k := funext fun a => Fin.ext (by
    match a with
    | ⟨0, _⟩ => exact mm_lhs_row _ _
    | ⟨1, _⟩ => exact (mm_lhs_col _ _).trans hk)
  have er : mmDims.rhsIdx (ix2 p q) ((contrEquiv1 mmDims 64 rfl rfl).symm k) = ix2 k q := funext fun a => Fin.ext (by
    match a with
    | ⟨0, _⟩ => exact (mm_rhs_row _ _).trans hk
    | ⟨1, _⟩ => exact mm_rhs_col _ _)
  rw [el, er]

/-- Region 0's body at entry (p, q): the change of float format is the identity on the extended reals, so the
    stored value is the block product of the two loaded blocks. -/
theorem mm0_pay (x0 : Vec Ideal S5000x64 .f32) (x1 : Vec Ideal S64x64 .f32) (p : Fin 5000) (q : Fin 64) :
    k0_pay1 (F := Ideal) x0 x1 (ix2 p q) = ∑ k : Fin 64, x0 (ix2 p k) * x1 (ix2 k q) := by
  unfold k0_pay1
  exact mm_block _ _ p q

/-- Region 2's body at entry (p, q): the same, after a re-shaping of the left block to its own shape, which is
    the identity. -/
theorem mm2_pay (x0 : Vec Ideal S5000x64 .f32) (x1 : Vec Ideal S64x64 .f32) (p : Fin 5000) (q : Fin 64) :
    k2_pay1 (F := Ideal) x0 x1 (ix2 p q) = ∑ k : Fin 64, x0 (ix2 p k) * x1 (ix2 k q) := by
  unfold k2_pay1
  rw [shapeCast_self]
  exact mm_block _ _ p q

/-! ## Region 0: the product of `main_arg0` (20 blocks of 5000 rows) with the whole of `main_arg2` -/

/-- The index maps over the 20 points: the row-blocked windows sit at block (t, 0), the weight window at block (0, 0). -/
theorem mm0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product: entry (p, q) of the block is the sum over k of the
    input block's entry (p, k), which is row 5000 t + p of the array, times the weight's entry (k, q). -/
theorem mm0_flushed (c : Dev nD) (t : Fin cfg0.N) :
    (dat0 (F := Ideal) V c).flushed 2 t
      = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero mm_origin]
  simp only [View.ld_unit_zero (S := S5000x64) mm_origin, View.ld_unit_zero (S := S64x64) mm_origin]
  funext j
  obtain ⟨p, q, rfl⟩ : ∃ (p : Fin 5000) (q : Fin 64), j = ix2 p q := ⟨j 0, j 1, eq_ix2 j⟩
  obtain ⟨e00, e01, e10, e11, e20, e21⟩ := mm0_idx t
  show k0_pay1 (F := Ideal) (iblk0 V c 0 t) (iblk0 V c 1 t) (ix2 p q)
    = Cert.Spec.mm (V c main_arg0) (V c main_arg2) (((cfg0.win 2).blk t).view.emb (ix2 p q))
  refine (mm0_pay _ _ p q).trans ?_
  refine Finset.sum_congr rfl fun k _ => ?_
  have hx : (iblk0 V c 0 t : Vec Ideal S5000x64 .f32) (ix2 p k)
      = V c main_arg0 (ix2 ((((cfg0.win 2).blk t).view.emb (ix2 p q)) 0) k) := by
    show V c main_arg0 (((cfg0.win 0).blk t).view.emb (ix2 p k)) = _
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * k.val = k.val; omega
  have hw : (iblk0 V c 1 t : Vec Ideal S64x64 .f32) (ix2 k q)
      = V c main_arg2 (ix2 k ((((cfg0.win 2).blk t).view.emb (ix2 p q)) 1)) := by
    show V c main_arg2 (((cfg0.win 1).blk t).view.emb (ix2 k q)) = _
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  rw [hx, hw]

/-- An index of the array is in point `t`'s block iff each coordinate is in the block's range on its axis. -/
theorem mm0_mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v13).slice (win0_2.rect t)).set ↔ _
  rw [View.set_slice_whole, Rect.mem_set_unit]
  exact Iff.rfl

/-- Every index is in some point's block: row r is in the block of point r / 5000, and each block has all 64 columns. -/
theorem mm0_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  let t : Fin cfg0.N := ⟨(i 0).val / 5000, by show (i 0).val / 5000 < grid0.N; omega⟩
  obtain ⟨e00, e01, e10, e11, e20, e21⟩ := mm0_idx t
  have ht : t.val = (i 0).val / 5000 := rfl
  refine ⟨t, flush0_2 t, ?_⟩
  rw [mm0_mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region's 20 write-backs the output array is the product, index by index. -/
theorem region0 (c : Dev nD) :
    (dat0 (F := Ideal) V c).arrAt 2 cfg0.N = Cert.Spec.mm (V c main_arg0) (V c main_arg2) :=
  (dat0 (F := Ideal) V c).arrAt_eq_of_cover 2 (Cert.Spec.mm (V c main_arg0) (V c main_arg2))
    (fun t _ => mm0_flushed V c t) mm0_cover

/-! ## Region 2: the product of `main_v43` (20 blocks of 5000 rows) with the whole of `main_arg4` -/

/-- The index maps over the 20 points: the row-blocked windows sit at block (t, 0), the weight window at block (0, 0). -/
theorem mm2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product: entry (p, q) of the block is the sum over k of the
    input block's entry (p, k), which is row 5000 t + p of the array, times the weight's entry (k, q). -/
theorem mm2_flushed (c : Dev nD) (t : Fin cfg2.N) :
    (dat2 (F := Ideal) V c).flushed 2 t
      = ((cfg2.win 2).blk t).view.read (Elt Ideal) (Cert.Spec.mm (V c main_v43) (V c main_arg4)) := by
  show (cfg2.win 2).cut (grid2.coords t) ((dat2 V c).after 2 t) = _
  rw [after2_2]
  unfold out2_2
  rw [View.canon_unit_zero mm_origin]
  simp only [View.ld_unit_zero (S := S5000x64) mm_origin, View.ld_unit_zero (S := S64x64) mm_origin]
  funext j
  obtain ⟨p, q, rfl⟩ : ∃ (p : Fin 5000) (q : Fin 64), j = ix2 p q := ⟨j 0, j 1, eq_ix2 j⟩
  obtain ⟨e00, e01, e10, e11, e20, e21⟩ := mm2_idx t
  show k2_pay1 (F := Ideal) (iblk2 V c 0 t) (iblk2 V c 1 t) (ix2 p q)
    = Cert.Spec.mm (V c main_v43) (V c main_arg4) (((cfg2.win 2).blk t).view.emb (ix2 p q))
  refine (mm2_pay _ _ p q).trans ?_
  refine Finset.sum_congr rfl fun k _ => ?_
  have hx : (iblk2 V c 0 t : Vec Ideal S5000x64 .f32) (ix2 p k)
      = V c main_v43 (ix2 ((((cfg2.win 2).blk t).view.emb (ix2 p q)) 0) k) := by
    show V c main_v43 (((cfg2.win 0).blk t).view.emb (ix2 p k)) = _
    refine congrArg _ (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * k.val = k.val; omega
  have hw : (iblk2 V c 1 t : Vec Ideal S64x64 .f32) (ix2 k q)
      = V c main_arg4 (ix2 k ((((cfg2.win 2).blk t).view.emb (ix2 p q)) 1)) := by
    show V c main_arg4 (((cfg2.win 1).blk t).view.emb (ix2 k q)) = _
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  rw [hx, hw]

/-- An index of the array is in point `t`'s block iff each coordinate is in the block's range on its axis. -/
theorem mm2_mem_blk (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v44).slice (win2_2.rect t)).set ↔ _
  rw [View.set_slice_whole, Rect.mem_set_unit]
  exact Iff.rfl

/-- Every index is in some point's block: row r is in the block of point r / 5000, and each block has all 64 columns. -/
theorem mm2_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 20 := N_2
  let t : Fin cfg2.N := ⟨(i 0).val / 5000, by show (i 0).val / 5000 < grid2.N; omega⟩
  obtain ⟨e00, e01, e10, e11, e20, e21⟩ := mm2_idx t
  have ht : t.val = (i 0).val / 5000 := rfl
  refine ⟨t, flush2_2 t, ?_⟩
  rw [mm2_mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the region's 20 write-backs the output array is the product, index by index. -/
theorem region2 (c : Dev nD) :
    (dat2 (F := Ideal) V c).arrAt 2 cfg2.N = Cert.Spec.mm (V c main_v43) (V c main_arg4) :=
  (dat2 (F := Ideal) V c).arrAt_eq_of_cover 2 (Cert.Spec.mm (V c main_v43) (V c main_arg4))
    (fun t _ => mm2_flushed V c t) mm2_cover

end Cert.KernelIdeal.Val

end
-- ==== Proof.RegionComb.lean ====
/-
  The two combine regions: at every grid point the body writes back block t (rows 5000·t … 5000·t + 4999) of
  max (agg + h · d + b) 0 of the region's four operand arrays, and the twenty row blocks cover the result array,
  so after the region the result array is that combined array.
-/
import proofs.«117982_j53755810677200_1_alg».proof.Proof.Gen.KernelIdeal.Frame
import proofs.«117982_j53755810677200_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

/-- The two zero offsets of a whole-block access, as the constant zero function. -/
theorem zero_offsets : (![0, 0] : Fin 2 → Nat) = fun _ => 0 := funext fun a => by fin_cases a <;> rfl

/-- A one-column array broadcast along the columns reads, at row p and column q, the operand's row p. -/
theorem column_broadcast_apply {α : Type} (v : (⟨2, ![5000, 1]⟩ : Shape).Idx → α)
    (h : (⟨2, ![5000, 1]⟩ : Shape).Broadcasts ⟨2, ![5000, 64]⟩) (p : Fin 5000) (q : Fin 64) :
    broadcastTo ⟨2, ![5000, 64]⟩ v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The combine body of region 1 at row p, column q of a block: the first operand plus the second scaled by the
    row's coefficient plus the column's bias, rectified at the zero word. -/
theorem combine1_apply (x0 x1 : Vec Ideal S5000x64 .f32) (x2 : Vec Ideal S5000x1 .f32) (x3 : Vec Ideal S1x64 .f32)
    (p : Fin 5000) (q : Fin 64) :
    k1_pay1 (F := Ideal) x0 x1 x2 x3 (ix2 p q)
      = max (x0 (ix2 p q) + x1 (ix2 p q) * x2 (ix2 p (0 : Fin 1)) + x3 (ix2 (0 : Fin 1) q))
          (Ideal.ofBits .f32 0x00000000#32) := by
  unfold k1_pay1
  simp only [shapeCast_self]
  rw [maximumf_apply, addf_apply, addf_apply, mulf_apply, broadcast_apply]
  rw [column_broadcast_apply, broadcastTo_1b_ab_apply]
  rfl

/-- The combine body of region 3 at row p, column q of a block: the first operand plus the second scaled by the
    row's coefficient plus the column's bias, rectified at the zero word. -/
theorem combine3_apply (x0 x1 : Vec Ideal S5000x64 .f32) (x2 : Vec Ideal S5000x1 .f32) (x3 : Vec Ideal S1x64 .f32)
    (p : Fin 5000) (q : Fin 64) :
    k3_pay1 (F := Ideal) x0 x1 x2 x3 (ix2 p q)
      = max (x0 (ix2 p q) + x1 (ix2 p q) * x2 (ix2 p (0 : Fin 1)) + x3 (ix2 (0 : Fin 1) q))
          (Ideal.ofBits .f32 0x00000000#32) := by
  unfold k3_pay1
  simp only [shapeCast_self]
  rw [maximumf_apply, addf_apply, addf_apply, mulf_apply, broadcast_apply]
  rw [column_broadcast_apply, broadcastTo_1b_ab_apply]
  rfl

variable (V : (c : Dev nD) → (b : Ref sig .tc) → Buf (Elt Ideal) ((c : Thread nD τ).loc b))

/-! ## Region 1: the blocks of the four operands and of the result -/

/-- The printed index maps of region 1, decided once over the grid: the three row-blocked operands and the
    result take block t on the rows and block 0 on the columns; the bias row is block (0, 0) at every point. -/
theorem index_maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The first operand's block at point t holds rows 5000·t … 5000·t + 4999 of its array, all columns. -/
theorem block1_0_apply (c : Dev nD) (t : Fin cfg1.N) (p : Fin 5000) (q : Fin 64) (i : S100000x64.Idx)
    (h0 : (i 0).val = 5000 * t.val + p.val) (h1 : (i 1).val = q.val) :
    (iblk1 (F := Ideal) V c 0 t : Vec Ideal S5000x64 .f32) (ix2 p q) = (V c main_v41 : S100000x64.Idx → EReal) i := by
  obtain ⟨e0, e1, -⟩ := index_maps1 t
  show V c main_v41 (((cfg1.win 0).blk t).view.emb (ix2 p q)) = V c main_v41 i
  refine congrArg _ (funext fun a => Fin.ext ?_)
  match a with
  | ⟨0, _⟩ => show win1_0.index t (0 : Fin 2) * 5000 + 1 * p.val = (i 0).val; omega
  | ⟨1, _⟩ => show win1_0.index t (1 : Fin 2) * 64 + 1 * q.val = (i 1).val; omega

/-- The second operand's block at point t holds the same rows of its array. -/
theorem block1_1_apply (c : Dev nD) (t : Fin cfg1.N) (p : Fin 5000) (q : Fin 64) (i : S100000x64.Idx)
    (h0 : (i 0).val = 5000 * t.val + p.val) (h1 : (i 1).val = q.val) :
    (iblk1 (F := Ideal) V c 1 t : Vec Ideal S5000x64 .f32) (ix2 p q) = (V c main_v13 : S100000x64.Idx → EReal) i := by
  obtain ⟨-, -, e0, e1, -⟩ := index_maps1 t
  show V c main_v13 (((cfg1.win 1).blk t).view.emb (ix2 p q)) = V c main_v13 i
  refine congrArg _ (funext fun a => Fin.ext ?_)
  match a with
  | ⟨0, _⟩ => show win1_1.index t (0 : Fin 2) * 5000 + 1 * p.val = (i 0).val; omega
  | ⟨1, _⟩ => show win1_1.index t (1 : Fin 2) * 64 + 1 * q.val = (i 1).val; omega

/-- The coefficient column's block at point t holds the same rows of the one-column array. -/
theorem block1_2_apply (c : Dev nD) (t : Fin cfg1.N) (p : Fin 5000) (i : S100000x1.Idx)
    (h0 : (i 0).val = 5000 * t.val + p.val) :
    (iblk1 (F := Ideal) V c 2 t : Vec Ideal S5000x1 .f32) (ix2 p (0 : Fin 1)) = (V c main_v12 : S100000x1.Idx → EReal) i := by
  obtain ⟨-, -, -, -, e0, e1, -⟩ := index_maps1 t
  show V c main_v12 (((cfg1.win 2).blk t).view.emb (ix2 p (0 : Fin 1))) = V c main_v12 i
  refine congrArg _ (funext fun a => Fin.ext ?_)
  match a with
  | ⟨0, _⟩ => show win1_2.index t (0 : Fin 2) * 5000 + 1 * p.val = (i 0).val; omega
  | ⟨1, _⟩ =>
    show win1_2.index t (1 : Fin 2) * 1 + 1 * (0 : Fin 1).val = (i 1).val
    have h1 : (i 1).val < 1 := idx2_lt1 i
    have hz : ((0 : Fin 1) : Nat) = 0 := rfl
    omega

/-- The bias row's block is the whole one-row array at every point. -/
theorem block1_3_apply (c : Dev nD) (t : Fin cfg1.N) (q : Fin 64) (i : S1x64.Idx) (h1 : (i 1).val = q.val) :
    (iblk1 (F := Ideal) V c 3 t : Vec Ideal S1x64 .f32) (ix2 (0 : Fin 1) q) = (V c main_v42 : S1x64.Idx → EReal) i := by
  obtain ⟨-, -, -, -, -, -, e0, e1, -⟩ := index_maps1 t
  show V c main_v42 (((cfg1.win 3).blk t).view.emb (ix2 (0 : Fin 1) q)) = V c main_v42 i
  refine congrArg _ (funext fun a => Fin.ext ?_)
  match a with
  | ⟨0, _⟩ =>
    show win1_3.index t (0 : Fin 2) * 1 + 1 * (0 : Fin 1).val = (i 0).val
    have h0 : (i 0).val < 1 := idx2_lt0 i
    have hz : ((0 : Fin 1) : Nat) = 0 := rfl
    omega
  | ⟨1, _⟩ => show win1_3.index t (1 : Fin 2) * 64 + 1 * q.val = (i 1).val; omega

/-- What point t writes back is block t of the combined array of the region's operands as it finds them. -/
theorem flushed1_eq (c : Dev nD) (t : Fin cfg1.N) :
    (dat1 (F := Ideal) V c).flushed 4 t = ((cfg1.win 4).blk t).view.read (Elt Ideal)
      (Cert.Spec.comb (V c main_v41) (V c main_v13) (V c main_v12) (V c main_v42)) := by
  show (cfg1.win 4).cut (grid1.coords t) ((dat1 V c).after 4 t) = _
  rw [after1_4]
  unfold out1_4
  rw [View.canon_unit_zero zero_offsets]
  simp only [View.ld_unit_zero (S := S5000x64) zero_offsets, View.ld_unit_zero (S := S5000x1) zero_offsets,
    View.ld_unit_zero (S := S1x64) zero_offsets]
  obtain ⟨-, -, -, -, -, -, -, -, e0, e1⟩ := index_maps1 t
  show (k1_pay1 (iblk1 V c 0 t) (iblk1 V c 1 t) (iblk1 V c 2 t) (iblk1 V c 3 t) : S5000x64.Idx → EReal)
    = fun j : S5000x64.Idx => Cert.Spec.comb (V c main_v41) (V c main_v13) (V c main_v12) (V c main_v42) (((cfg1.win 4).blk t).view.emb j)
  funext j
  obtain ⟨p, q, rfl⟩ : ∃ (p : Fin 5000) (q : Fin 64), j = ix2 p q := ⟨j 0, j 1, eq_ix2 j⟩
  refine (combine1_apply _ _ _ _ p q).trans ?_
  have r0 : ((((cfg1.win 4).blk t).view.emb (ix2 p q) : S100000x64.Idx) 0).val = 5000 * t.val + p.val := by
    show win1_4.index t (0 : Fin 2) * 5000 + 1 * p.val = _; omega
  have r1 : ((((cfg1.win 4).blk t).view.emb (ix2 p q) : S100000x64.Idx) 1).val = q.val := by
    show win1_4.index t (1 : Fin 2) * 64 + 1 * q.val = _; omega
  rw [block1_0_apply V c t p q _ r0 r1, block1_1_apply V c t p q _ r0 r1,
    block1_2_apply V c t p (ix2 ((((cfg1.win 4).blk t).view.emb (ix2 p q) : S100000x64.Idx) 0) 0) r0,
    block1_3_apply V c t q (ix2 0 ((((cfg1.win 4).blk t).view.emb (ix2 p q) : S100000x64.Idx) 1)) r1]
  rfl

/-- An index of the result array lies in point t's block iff each coordinate lies in the block's range. -/
theorem mem_block1 (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v43).slice (win1_4.rect t)).set ↔ _
  rw [View.set_slice_whole, Rect.mem_set_unit]
  exact Iff.rfl

/-- The twenty row blocks cover the result array: row r lies in the block of point r / 5000. -/
theorem covered1 (i : S100000x64.Idx) :
    ∃ t : Fin cfg1.N, (cfg1.win 4).flush t = true ∧ i ∈ ((cfg1.win 4).blk t).view.set := by
  have hi0 : (i 0).val < 100000 := idx2_lt0 i
  have hi1 : (i 1).val < 64 := idx2_lt1 i
  have hN : cfg1.N = 20 := N_1
  have ht : (i 0).val / 5000 < cfg1.N := by rw [hN]; omega
  refine ⟨⟨(i 0).val / 5000, ht⟩, flush1_4 _, ?_⟩
  rw [mem_block1]
  obtain ⟨-, -, -, -, -, -, -, -, e0, e1⟩ := index_maps1 ⟨(i 0).val / 5000, ht⟩
  have e0' : win1_4.index (⟨(i 0).val / 5000, ht⟩ : Fin cfg1.N) (0 : Fin 2) = (i 0).val / 5000 := e0
  intro a
  match a with
  | ⟨0, _⟩ =>
    show win1_4.index _ (0 : Fin 2) * 5000 ≤ (i 0).val ∧ (i 0).val < win1_4.index _ (0 : Fin 2) * 5000 + 5000
    rw [e0']; omega
  | ⟨1, _⟩ =>
    show win1_4.index _ (1 : Fin 2) * 64 ≤ (i 1).val ∧ (i 1).val < win1_4.index _ (1 : Fin 2) * 64 + 64
    rw [e1]; omega

/-- The result array after the region's twenty write-backs is the combined array of its operands. -/
theorem region1 (c : Dev nD) :
    (dat1 (F := Ideal) V c).arrAt 4 cfg1.N = Cert.Spec.comb (V c main_v41) (V c main_v13) (V c main_v12) (V c main_v42) :=
  (dat1 (F := Ideal) V c).arrAt_eq_of_cover 4 _ (fun t _ => flushed1_eq V c t) (covered1)

/-! ## Region 3: the blocks of the four operands and of the result -/

/-- The printed index maps of region 3, decided once over the grid: the three row-blocked operands and the
    result take block t on the rows and block 0 on the columns; the bias row is block (0, 0) at every point. -/
theorem index_maps3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The first operand's block at point t holds rows 5000·t … 5000·t + 4999 of its array, all columns. -/
theorem block3_0_apply (c : Dev nD) (t : Fin cfg3.N) (p : Fin 5000) (q : Fin 64) (i : S100000x64.Idx)
    (h0 : (i 0).val = 5000 * t.val + p.val) (h1 : (i 1).val = q.val) :
    (iblk3 (F := Ideal) V c 0 t : Vec Ideal S5000x64 .f32) (ix2 p q) = (V c main_v72 : S100000x64.Idx → EReal) i := by
  obtain ⟨e0, e1, -⟩ := index_maps3 t
  show V c main_v72 (((cfg3.win 0).blk t).view.emb (ix2 p q)) = V c main_v72 i
  refine congrArg _ (funext fun a => Fin.ext ?_)
  match a with
  | ⟨0, _⟩ => show win3_0.index t (0 : Fin 2) * 5000 + 1 * p.val = (i 0).val; omega
  | ⟨1, _⟩ => show win3_0.index t (1 : Fin 2) * 64 + 1 * q.val = (i 1).val; omega

/-- The second operand's block at point t holds the same rows of its array. -/
theorem block3_1_apply (c : Dev nD) (t : Fin cfg3.N) (p : Fin 5000) (q : Fin 64) (i : S100000x64.Idx)
    (h0 : (i 0).val = 5000 * t.val + p.val) (h1 : (i 1).val = q.val) :
    (iblk3 (F := Ideal) V c 1 t : Vec Ideal S5000x64 .f32) (ix2 p q) = (V c main_v44 : S100000x64.Idx → EReal) i := by
  obtain ⟨-, -, e0, e1, -⟩ := index_maps3 t
  show V c main_v44 (((cfg3.win 1).blk t).view.emb (ix2 p q)) = V c main_v44 i
  refine congrArg _ (funext fun a => Fin.ext ?_)
  match a with
  | ⟨0, _⟩ => show win3_1.index t (0 : Fin 2) * 5000 + 1 * p.val = (i 0).val; omega
  | ⟨1, _⟩ => show win3_1.index t (1 : Fin 2) * 64 + 1 * q.val = (i 1).val; omega

/-- The coefficient column's block at point t holds the same rows of the one-column array. -/
theorem block3_2_apply (c : Dev nD) (t : Fin cfg3.N) (p : Fin 5000) (i : S100000x1.Idx)
    (h0 : (i 0).val = 5000 * t.val + p.val) :
    (iblk3 (F := Ideal) V c 2 t : Vec Ideal S5000x1 .f32) (ix2 p (0 : Fin 1)) = (V c main_v12 : S100000x1.Idx → EReal) i := by
  obtain ⟨-, -, -, -, e0, e1, -⟩ := index_maps3 t
  show V c main_v12 (((cfg3.win 2).blk t).view.emb (ix2 p (0 : Fin 1))) = V c main_v12 i
  refine congrArg _ (funext fun a => Fin.ext ?_)
  match a with
  | ⟨0, _⟩ => show win3_2.index t (0 : Fin 2) * 5000 + 1 * p.val = (i 0).val; omega
  | ⟨1, _⟩ =>
    show win3_2.index t (1 : Fin 2) * 1 + 1 * (0 : Fin 1).val = (i 1).val
    have h1 : (i 1).val < 1 := idx2_lt1 i
    have hz : ((0 : Fin 1) : Nat) = 0 := rfl
    omega

/-- The bias row's block is the whole one-row array at every point. -/
theorem block3_3_apply (c : Dev nD) (t : Fin cfg3.N) (q : Fin 64) (i : S1x64.Idx) (h1 : (i 1).val = q.val) :
    (iblk3 (F := Ideal) V c 3 t : Vec Ideal S1x64 .f32) (ix2 (0 : Fin 1) q) = (V c main_v73 : S1x64.Idx → EReal) i := by
  obtain ⟨-, -, -, -, -, -, e0, e1, -⟩ := index_maps3 t
  show V c main_v73 (((cfg3.win 3).blk t).view.emb (ix2 (0 : Fin 1) q)) = V c main_v73 i
  refine congrArg _ (funext fun a => Fin.ext ?_)
  match a with
  | ⟨0, _⟩ =>
    show win3_3.index t (0 : Fin 2) * 1 + 1 * (0 : Fin 1).val = (i 0).val
    have h0 : (i 0).val < 1 := idx2_lt0 i
    have hz : ((0 : Fin 1) : Nat) = 0 := rfl
    omega
  | ⟨1, _⟩ => show win3_3.index t (1 : Fin 2) * 64 + 1 * q.val = (i 1).val; omega

/-- What point t writes back is block t of the combined array of the region's operands as it finds them. -/
theorem flushed3_eq (c : Dev nD) (t : Fin cfg3.N) :
    (dat3 (F := Ideal) V c).flushed 4 t = ((cfg3.win 4).blk t).view.read (Elt Ideal)
      (Cert.Spec.comb (V c main_v72) (V c main_v44) (V c main_v12) (V c main_v73)) := by
  show (cfg3.win 4).cut (grid3.coords t) ((dat3 V c).after 4 t) = _
  rw [after3_4]
  unfold out3_4
  rw [View.canon_unit_zero zero_offsets]
  simp only [View.ld_unit_zero (S := S5000x64) zero_offsets, View.ld_unit_zero (S := S5000x1) zero_offsets,
    View.ld_unit_zero (S := S1x64) zero_offsets]
  obtain ⟨-, -, -, -, -, -, -, -, e0, e1⟩ := index_maps3 t
  show (k3_pay1 (iblk3 V c 0 t) (iblk3 V c 1 t) (iblk3 V c 2 t) (iblk3 V c 3 t) : S5000x64.Idx → EReal)
    = fun j : S5000x64.Idx => Cert.Spec.comb (V c main_v72) (V c main_v44) (V c main_v12) (V c main_v73) (((cfg3.win 4).blk t).view.emb j)
  funext j
  obtain ⟨p, q, rfl⟩ : ∃ (p : Fin 5000) (q : Fin 64), j = ix2 p q := ⟨j 0, j 1, eq_ix2 j⟩
  refine (combine3_apply _ _ _ _ p q).trans ?_
  have r0 : ((((cfg3.win 4).blk t).view.emb (ix2 p q) : S100000x64.Idx) 0).val = 5000 * t.val + p.val := by
    show win3_4.index t (0 : Fin 2) * 5000 + 1 * p.val = _; omega
  have r1 : ((((cfg3.win 4).blk t).view.emb (ix2 p q) : S100000x64.Idx) 1).val = q.val := by
    show win3_4.index t (1 : Fin 2) * 64 + 1 * q.val = _; omega
  rw [block3_0_apply V c t p q _ r0 r1, block3_1_apply V c t p q _ r0 r1,
    block3_2_apply V c t p (ix2 ((((cfg3.win 4).blk t).view.emb (ix2 p q) : S100000x64.Idx) 0) 0) r0,
    block3_3_apply V c t q (ix2 0 ((((cfg3.win 4).blk t).view.emb (ix2 p q) : S100000x64.Idx) 1)) r1]
  rfl

/-- An index of the result array lies in point t's block iff each coordinate lies in the block's range. -/
theorem mem_block3 (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v74).slice (win3_4.rect t)).set ↔ _
  rw [View.set_slice_whole, Rect.mem_set_unit]
  exact Iff.rfl

/-- The twenty row blocks cover the result array: row r lies in the block of point r / 5000. -/
theorem covered3 (i : S100000x64.Idx) :
    ∃ t : Fin cfg3.N, (cfg3.win 4).flush t = true ∧ i ∈ ((cfg3.win 4).blk t).view.set := by
  have hi0 : (i 0).val < 100000 := idx2_lt0 i
  have hi1 : (i 1).val < 64 := idx2_lt1 i
  have hN : cfg3.N = 20 := N_3
  have ht : (i 0).val / 5000 < cfg3.N := by rw [hN]; omega
  refine ⟨⟨(i 0).val / 5000, ht⟩, flush3_4 _, ?_⟩
  rw [mem_block3]
  obtain ⟨-, -, -, -, -, -, -, -, e0, e1⟩ := index_maps3 ⟨(i 0).val / 5000, ht⟩
  have e0' : win3_4.index (⟨(i 0).val / 5000, ht⟩ : Fin cfg3.N) (0 : Fin 2) = (i 0).val / 5000 := e0
  intro a
  match a with
  | ⟨0, _⟩ =>
    show win3_4.index _ (0 : Fin 2) * 5000 ≤ (i 0).val ∧ (i 0).val < win3_4.index _ (0 : Fin 2) * 5000 + 5000
    rw [e0']; omega
  | ⟨1, _⟩ =>
    show win3_4.index _ (1 : Fin 2) * 64 ≤ (i 1).val ∧ (i 1).val < win3_4.index _ (1 : Fin 2) * 64 + 64
    rw [e1]; omega

/-- The result array after the region's twenty write-backs is the combined array of its operands. -/
theorem region3 (c : Dev nD) :
    (dat3 (F := Ideal) V c).arrAt 4 cfg3.N = Cert.Spec.comb (V c main_v72) (V c main_v44) (V c main_v12) (V c main_v73) :=
  (dat3 (F := Ideal) V c).arrAt_eq_of_cover 4 _ (fun t _ => flushed3_eq V c t) (covered3)

end Cert.KernelIdeal.Val

end
-- ==== Proof.RegionLin.lean ====
/-
  The last region's output array as one function of the arrays the region finds. Each of its 20 points loads
  rows 5000·t … 5000·t + 4999 of the [100000, 64] features, the whole one-column weight and the whole one-by-one
  bias, and stores, at local row p, the product's sum over k of x[p,k] · w[k,0] plus the bias; the point's block of
  the output is rows 5000·t … 5000·t + 4999, so the array ends holding, at row r, the sum over k of
  h[r,k] · w[k,0] plus the bias, and the blocks of the 20 points cover all 100000 rows (row r is point r / 5000's).
-/
import proofs.«117982_j53755810677200_1_alg».proof.Proof.Gen.KernelIdeal.Frame
import proofs.«117982_j53755810677200_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The body's arithmetic at an index -/

/-- The block product's dimension numbers: rows of the left block against the one column of the right,
    contracting the left's axis 1 with the right's axis 0. -/
abbrev dotBlk := dot_S5000x64_S64x1_S5000x1_1_0_0_1_n_n

/-- The left block's entry the product reads at local row `p` and contraction position `k` is `(p, k)`. -/
theorem dotBlk_lhs (p : Fin 5000) (q : Fin 1) (k : Fin 64) :
    dotBlk.lhsIdx (ix2 p q) ((contrEquiv1 dotBlk 64 rfl rfl).symm k) = ix2 p k := by
  have hk := contrEquiv1_symm_val dotBlk 64 rfl rfl k
  refine funext fun a => Fin.ext ?_
  match a with
  | ⟨0, _⟩ =>
    show (dotBlk.lhsIdx (ix2 p q) ((contrEquiv1 dotBlk 64 rfl rfl).symm k) 0).val = p.val
    unfold DotDims.lhsIdx
    rw [dif_neg (show ¬(0 : Fin S5000x64.rank) ∈ dotBlk.lhsBatch by decide), dif_pos (show (0 : Fin S5000x64.rank) ∈ dotBlk.lhsNonContracting by decide)]
    rfl
  | ⟨1, _⟩ => exact (dotBlk.lhsIdx_val_of_single rfl (ix2 p q) _).trans hk

/-- The right operand's entry the product reads there is `(k, 0)`. -/
theorem dotBlk_rhs (p : Fin 5000) (q : Fin 1) (k : Fin 64) :
    dotBlk.rhsIdx (ix2 p q) ((contrEquiv1 dotBlk 64 rfl rfl).symm k) = ix2 k 0 := by
  have hk := contrEquiv1_symm_val dotBlk 64 rfl rfl k
  refine funext fun a => Fin.ext ?_
  match a with
  | ⟨0, _⟩ => exact (dotBlk.rhsIdx_val_of_single rfl (ix2 p q) _).trans hk
  | ⟨1, _⟩ =>
    show (dotBlk.rhsIdx (ix2 p q) ((contrEquiv1 dotBlk 64 rfl rfl).symm k) 1).val = (0 : Fin 1).val
    unfold DotDims.rhsIdx
    rw [dif_neg (show ¬(1 : Fin S64x1.rank) ∈ dotBlk.rhsBatch by decide), dif_pos (show (1 : Fin S64x1.rank) ∈ dotBlk.rhsNonContracting by decide)]
    show q.val = (0 : Fin 1).val
    have h0 : ((0 : Fin 1)).val = 0 := rfl
    have := q.isLt
    omega

/-- What the body stores at local row `p`: the sum over `k` of `x0[p,k] · x1[k,0]` (a product into a zero
    accumulator; the changes of float format are the identity on extended reals) plus the one bias entry
    (broadcast down the rows). -/
theorem pay_apply (x0 : Vec Ideal S5000x64 .f32) (x1 : Vec Ideal S64x1 .f32) (x2 : Vec Ideal S1x1 .f32) (p : Fin 5000) (q : Fin 1) :
    k4_pay1 (F := Ideal) x0 x1 x2 (ix2 p q) = (∑ k : Fin 64, x0 (ix2 p k) * x1 (ix2 k 0)) + x2 (ix2 0 0) := by
  unfold k4_pay1
  simp only [shapeCast_self]
  rw [addf_apply]
  congr 1
  · refine (Ideal.matmul_constant_zero_apply dotBlk none _ _ (ix2 p q)).trans ?_
    rw [← Equiv.sum_comp (contrEquiv1 dotBlk 64 rfl rfl).symm]
    refine Finset.sum_congr rfl fun k _ => ?_
    rw [dotBlk_lhs, dotBlk_rhs, truncf_apply, truncf_apply]
  · refine broadcastTo_apply x2 _ (ix2 p q) (ix2 0 0) fun a => ?_
    match a with
    | ⟨0, _⟩ => rfl
    | ⟨1, _⟩ => rfl

/-- So a block whose rows are rows `5000·n …` of `H` gives, at local row `j 0`, the specification's value at row
    `5000·n + j 0`. -/
theorem pay_lin (x0 : Vec Ideal S5000x64 .f32) (x1 : Vec Ideal S64x1 .f32) (x2 : Vec Ideal S1x1 .f32)
    (H : S100000x64.Idx → EReal) (W : S64x1.Idx → EReal) (B : S1x1.Idx → EReal) (n : Nat)
    (h0 : ∀ (y : S5000x64.Idx) (i : S100000x64.Idx), (i 0).val = n * 5000 + (y 0).val → (i 1).val = (y 1).val → x0 y = H i)
    (h1 : x1 = W) (h2 : x2 = B) (j : S5000x1.Idx) (i : S100000x1.Idx) (hi : (i 0).val = n * 5000 + (j 0).val) :
    k4_pay1 (F := Ideal) x0 x1 x2 j = Cert.Spec.lin H W B i := by
  subst h1 h2
  obtain ⟨p, q, rfl⟩ : ∃ (p : Fin 5000) (q : Fin 1), j = ix2 p q := ⟨j 0, j 1, eq_ix2 j⟩
  rw [pay_apply]
  show _ = (∑ k : Fin 64, H (ix2 (i 0) k) * x1 (ix2 k 0)) + x2 (ix2 0 0)
  congr 1
  refine Finset.sum_congr rfl fun k _ => ?_
  rw [h0 (ix2 p k) (ix2 (i 0) k) hi rfl]

/-! ## The blocks -/

theorem hz : (![0, 0] : Fin 2 → Nat) = fun _ => 0 := funext fun a => by fin_cases a <;> rfl

/-- The printed index maps, decided once over the grid: the features' and the output's blocks move down the rows
    with the point; the weight and the bias are one whole block at every point. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The features' block at point `t` is rows `5000·t … 5000·t + 4999` of the array, all 64 columns. -/
theorem blk0_apply (c : Dev nD) (t : Fin cfg4.N) (y : S5000x64.Idx) (i : S100000x64.Idx)
    (h0 : (i 0).val = t.val * 5000 + (y 0).val) (h1 : (i 1).val = (y 1).val) :
    (iblk4 V c 0 t : Vec Ideal S5000x64 .f32) y = (V c main_v74 : S100000x64.Idx → EReal) i := by
  obtain ⟨e0, e1, -⟩ := idx_facts t
  show V c main_v74 (((cfg4.win 0).blk t).view.emb y) = V c main_v74 i
  refine congrArg _ (funext fun a => Fin.ext ?_)
  match a with
  | ⟨0, _⟩ => show win4_0.index t (0 : Fin 2) * 5000 + 1 * (y 0).val = (i 0).val; omega
  | ⟨1, _⟩ => show win4_0.index t (1 : Fin 2) * 64 + 1 * (y 1).val = (i 1).val; omega

/-- The weight's block at every point is the whole array. -/
theorem blk1_eq (c : Dev nD) (t : Fin cfg4.N) :
    (iblk4 V c 1 t : Vec Ideal S64x1 .f32) = (V c main_arg6 : S64x1.Idx → EReal) := by
  obtain ⟨-, -, e2, e3, -⟩ := idx_facts t
  funext y
  show V c main_arg6 (((cfg4.win 1).blk t).view.emb y) = V c main_arg6 y
  refine congrArg _ (funext fun a => Fin.ext ?_)
  match a with
  | ⟨0, _⟩ => show win4_1.index t (0 : Fin 2) * 64 + 1 * (y 0).val = (y 0).val; omega
  | ⟨1, _⟩ => show win4_1.index t (1 : Fin 2) * 1 + 1 * (y 1).val = (y 1).val; omega

/-- The bias's block at every point is the whole array. -/
theorem blk2_eq (c : Dev nD) (t : Fin cfg4.N) :
    (iblk4 V c 2 t : Vec Ideal S1x1 .f32) = (V c main_v75 : S1x1.Idx → EReal) := by
  obtain ⟨-, -, -, -, e4, e5, -⟩ := idx_facts t
  funext y
  show V c main_v75 (((cfg4.win 2).blk t).view.emb y) = V c main_v75 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 1 + 1 * (y 1).val = (y 1).val; omega

/-- What point `t` writes back is block `t` of the specification of the arrays as the region finds them. -/
theorem flushed_eq (c : Dev nD) (t : Fin cfg4.N) :
    (dat4 (F := Ideal) V c).flushed 3 t
      = ((cfg4.win 3).blk t).view.read (Elt Ideal) (Cert.Spec.lin (V c main_v74) (V c main_arg6) (V c main_v75)) := by
  show (cfg4.win 3).cut (grid4.coords t) ((dat4 V c).after 3 t) = _
  rw [after4_3]
  unfold out4_3
  rw [View.canon_unit_zero hz]
  simp only [View.ld_unit_zero (S := S5000x64) hz, View.ld_unit_zero (S := S64x1) hz, View.ld_unit_zero (S := S1x1) hz]
  obtain ⟨-, -, -, -, -, -, e6, e7⟩ := idx_facts t
  funext j
  show k4_pay1 (iblk4 V c 0 t) (iblk4 V c 1 t) (iblk4 V c 2 t) j
    = Cert.Spec.lin (V c main_v74) (V c main_arg6) (V c main_v75) (((cfg4.win 3).blk t).view.emb j)
  refine pay_lin _ _ _ _ _ _ t.val (fun y i a b => blk0_apply V c t y i a b) (blk1_eq V c t) (blk2_eq V c t) j _ ?_
  show win4_3.index t (0 : Fin 2) * 5000 + 1 * (j 0).val = t.val * 5000 + (j 0).val
  omega

/-- An index of the output array is in point `t`'s block iff each coordinate is in the block's range on its axis. -/
theorem mem_blk (t : Fin cfg4.N) (i : S100000x1.Idx) :
    i ∈ ((cfg4.win 3).blk t).view.set ↔ ∀ a : Fin 2, win4_3.index t a * S5000x1.size a ≤ (i a).val ∧ (i a).val < win4_3.index t a * S5000x1.size a + S5000x1.size a := by
  show i ∈ ((View.whole main_v76).slice (win4_3.rect t)).set ↔ _
  rw [View.set_slice_whole, Rect.mem_set_unit]
  exact Iff.rfl

/-- Every row of the output is in some point's block: row `r` in point `r / 5000`'s. -/
theorem covered (i : S100000x1.Idx) :
    ∃ t : Fin cfg4.N, (cfg4.win 3).flush t = true ∧ i ∈ ((cfg4.win 3).blk t).view.set := by
  have hi0 : (i 0).val < 100000 := (i 0).isLt
  have hi1 : (i 1).val < 1 := (i 1).isLt
  obtain ⟨t, ht⟩ : ∃ t : Fin cfg4.N, t.val = (i 0).val / 5000 :=
    ⟨⟨(i 0).val / 5000, by rw [show cfg4.N = 20 from N_4]; omega⟩, rfl⟩
  obtain ⟨-, -, -, -, -, -, e6, e7⟩ := idx_facts t
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 1 ≤ (i 1).val ∧ (i 1).val < win4_3.index t (1 : Fin 2) * 1 + 1; omega

theorem region4 (c : Dev nD) :
    (dat4 (F := Ideal) V c).arrAt 3 cfg4.N = Cert.Spec.lin (V c main_v74) (V c main_arg6) (V c main_v75) :=
  (dat4 (F := Ideal) V c).arrAt_eq_of_cover 3 _ (fun t _ => flushed_eq V c t) covered

end Cert.KernelIdeal.Val

end
-- ==== Proof.RefMm.lean ====
/-
  The reference's host product of a [100000,64] array with a [64,64] array, read index by index: row r, column c is
  the sum over the one contracted axis k of x[r,k] * w[k,c], which is the specification's product.
-/
import proofs.«117982_j53755810677200_1_alg».proof.Proof.Gen.ReferenceIdeal
import proofs.«117982_j53755810677200_1_alg».proof.Proof.Spec
import Idealize.ShloMosaic.PureOps.Ideal.Laws
import Idealize.ShloMosaic.Lib.ValueIdx
import Idealize.ShloMosaic.Lib.Pipeline.Value

noncomputable section

namespace Cert.ReferenceIdeal.Val

open Cert.ReferenceIdeal Cert.ReferenceIdeal.Gen Idealize.ShloMosaic Idealize.ShloMosaic.ValueIdx

/-- The product's dimension numbers: the left operand's axis 1 contracted against the right operand's axis 0. -/
abbrev mmDims : DotDims S100000x64 S64x64 S100000x64 := dot_S100000x64_S64x64_S100000x64_1_0_0_1_n_n

/-- The left operand's row is the result's row (a non-contracting axis reads the result index). -/
theorem mm_lhs_row (i : S100000x64.Idx) (q : mmDims.contr.Idx) : (mmDims.lhsIdx i q 0).val = (i 0).val := by
  unfold DotDims.lhsIdx
  rw [dif_neg (show ¬(0 : Fin S100000x64.rank) ∈ mmDims.lhsBatch by decide),
    dif_pos (show (0 : Fin S100000x64.rank) ∈ mmDims.lhsNonContracting by decide)]
  rfl

/-- The left operand's column is the contraction position. -/
theorem mm_lhs_col (i : S100000x64.Idx) (q : mmDims.contr.Idx) : (mmDims.lhsIdx i q 1).val = (q ⟨0, by decide⟩).val :=
  mmDims.lhsIdx_val_of_single rfl i q

/-- The right operand's row is the contraction position. -/
theorem mm_rhs_row (i : S100000x64.Idx) (q : mmDims.contr.Idx) : (mmDims.rhsIdx i q 0).val = (q ⟨0, by decide⟩).val :=
  mmDims.rhsIdx_val_of_single rfl i q

/-- The right operand's column is the result's column. -/
theorem mm_rhs_col (i : S100000x64.Idx) (q : mmDims.contr.Idx) : (mmDims.rhsIdx i q 1).val = (i 1).val := by
  unfold DotDims.rhsIdx
  rw [dif_neg (show ¬(1 : Fin S64x64.rank) ∈ mmDims.rhsBatch by decide),
    dif_pos (show (1 : Fin S64x64.rank) ∈ mmDims.rhsNonContracting by decide)]
  rfl

/-- The host product is the specification's product: the sum over the contraction shape's one axis re-indexed by
    its coordinate, the operand indices at (row, k) and (k, column). -/
theorem dot_eq_mm (x : FVec Ideal S100000x64 .f32) (w : FVec Ideal S64x64 .f32) :
    Host.dotGeneral (F := Ideal) dot_S100000x64_S64x64_S100000x64_1_0_0_1_n_n none x w = Cert.Spec.mm x w := by
  funext i
  simp only [Host.dotGeneral]
  rw [Ideal.dotGeneral_apply, ← Equiv.sum_comp (contrEquiv1 mmDims 64 rfl rfl).symm]
  show _ = ∑ k : Fin 64, x (ix2 (i 0) k) * w (ix2 k (i 1))
  refine Finset.sum_congr rfl fun k _ => ?_
  have hk := contrEquiv1_symm_val mmDims 64 rfl rfl k
  have el : mmDims.lhsIdx i ((contrEquiv1 mmDims 64 rfl rfl).symm k) = ix2 (i 0) k := funext fun a => Fin.ext (by
    match a with
    | ⟨0, _⟩ => exact mm_lhs_row _ _
    | ⟨1, _⟩ => exact (mm_lhs_col _ _).trans hk)
  have er : mmDims.rhsIdx i ((contrEquiv1 mmDims 64 rfl rfl).symm k) = ix2 k (i 1) := funext fun a => Fin.ext (by
    match a with
    | ⟨0, _⟩ => exact (mm_rhs_row _ _).trans hk
    | ⟨1, _⟩ => exact mm_rhs_col _ _)
  rw [el, er]
  rfl

end Cert.ReferenceIdeal.Val

end
-- ==== Proof.RefComb.lean ====
/-
  The reference's chain of host operations for one combine stage — the coefficient vector repeated along the columns,
  the bias vector repeated along the rows, the splat zero, and the pointwise sum, product and maximum — is the
  combined array of the specification, read index by index.
-/
import proofs.«117982_j53755810677200_1_alg».proof.Proof.Gen.ReferenceIdeal
import proofs.«117982_j53755810677200_1_alg».proof.Proof.Spec
import Idealize.ShloMosaic.PureOps.Ideal.Laws
import Idealize.ShloMosaic.Lib.ValueIdx
import Idealize.ShloMosaic.Lib.Pipeline.Value

noncomputable section

namespace Cert.ReferenceIdeal.Val

open Cert.ReferenceIdeal Cert.ReferenceIdeal.Gen Idealize.ShloMosaic Idealize.ShloMosaic.ValueIdx

/-- A vector of one value per row, laid as a column and then repeated along the columns, reads at row r and
    column q the vector's entry r. -/
theorem column_of_vector_apply (d : FVec Ideal S100000 .f32) (r : Fin 100000) (q : Fin 64) :
    broadcastInDim S100000x64 ![0, 1] bcast_S100000x1_S100000x64_0_1
      (broadcastInDim S100000x1 ![0] bcast_S100000_S100000x1_0 d) (ix2 r q) = d (ix1 r) := by
  refine (broadcastInDim_apply _ _ _ (ix2 r q) (ix2 r (0 : Fin 1)) fun a => ?_).trans ?_
  · match a with
    | ⟨0, _⟩ => rfl
    | ⟨1, _⟩ => rfl
  · refine broadcastInDim_apply _ _ _ (ix2 r (0 : Fin 1)) (ix1 r) fun a => ?_
    match a with
    | ⟨0, _⟩ => rfl

/-- A vector of one value per column, laid as a row and then repeated along the rows, reads at row r and
    column q the vector's entry q. -/
theorem row_of_vector_apply (b : FVec Ideal S64 .f32) (r : Fin 100000) (q : Fin 64) :
    broadcastInDim S100000x64 ![0, 1] bcast_S1x64_S100000x64_0_1
      (broadcastInDim S1x64 ![1] bcast_S64_S1x64_1 b) (ix2 r q) = b (ix1 q) := by
  refine (broadcastInDim_apply _ _ _ (ix2 r q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

/-- The splat of the zero word over the full shape reads that word's value everywhere. -/
theorem zero_splat_apply (i : S100000x64.Idx) :
    broadcastInDim S100000x64 ![] bcast_S_S100000x64 (constant (F := Ideal) S_ .f32 0x00000000#32) i
      = Ideal.ofBits .f32 0x00000000#32 :=
  (broadcastInDim_apply _ _ _ i (fun a => a.elim0) fun a => a.elim0).trans (constant_apply _ _)

/-- The reference's rectified sum, index by index: the aggregate plus the features scaled by the row's coefficient
    plus the column's bias, maximum with the zero word — the combined array of the coefficient vector read as a
    column and the bias vector read as a row. -/
theorem relu_eq_comb (agg h : FVec Ideal S100000x64 .f32) (d : FVec Ideal S100000 .f32) (b : FVec Ideal S64 .f32) :
    maximumf (addf (addf agg (mulf h (broadcastInDim S100000x64 ![0, 1] bcast_S100000x1_S100000x64_0_1
        (broadcastInDim S100000x1 ![0] bcast_S100000_S100000x1_0 d))))
      (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))
    = Cert.Spec.comb agg h (Cert.Spec.col d) (Cert.Spec.row b) := by
  funext i
  obtain ⟨r, q, rfl⟩ : ∃ (r : Fin 100000) (q : Fin 64), i = ix2 r q := ⟨i 0, i 1, eq_ix2 i⟩
  rw [maximumf_apply, addf_apply, addf_apply, mulf_apply, column_of_vector_apply, row_of_vector_apply,
    zero_splat_apply]
  rfl

end Cert.ReferenceIdeal.Val

end
-- ==== Proof.RefLin.lean ====
/-
  The reference's last stage read index by index: a product of the [100000, 64] features with a one-column
  weight is, at row r, the sum over k of h[r,k] · w[k,0]; the bias, a one-element vector broadcast first to a
  one-by-one array and then down the rows, is its only entry at every row.
-/
import proofs.«117982_j53755810677200_1_alg».proof.Proof.Gen.ReferenceIdeal
import proofs.«117982_j53755810677200_1_alg».proof.Proof.Spec
import Idealize.ShloMosaic.PureOps.Ideal.Laws
import Idealize.ShloMosaic.Lib.ValueIdx
import Idealize.ShloMosaic.Lib.Pipeline.Value

noncomputable section

namespace Cert.ReferenceIdeal.Val

open Cert.ReferenceIdeal Cert.ReferenceIdeal.Gen Idealize.ShloMosaic Idealize.ShloMosaic.ValueIdx

/-- The product's dimension numbers: rows of the left operand against the one column of the right, contracting
    the left's axis 1 with the right's axis 0. -/
abbrev dotLin := dot_S100000x64_S64x1_S100000x1_1_0_0_1_n_n

/-- The left operand's entry the product reads at output row `r` and contraction position `k` is `(r, k)`. -/
theorem dotLin_lhs (r : Fin 100000) (q : Fin 1) (k : Fin 64) :
    dotLin.lhsIdx (ix2 r q) ((contrEquiv1 dotLin 64 rfl rfl).symm k) = ix2 r k := by
  have hk := contrEquiv1_symm_val dotLin 64 rfl rfl k
  refine funext fun a => Fin.ext ?_
  match a with
  | ⟨0, _⟩ =>
    show (dotLin.lhsIdx (ix2 r q) ((contrEquiv1 dotLin 64 rfl rfl).symm k) 0).val = r.val
    unfold DotDims.lhsIdx
    rw [dif_neg (show ¬(0 : Fin S100000x64.rank) ∈ dotLin.lhsBatch by decide), dif_pos (show (0 : Fin S100000x64.rank) ∈ dotLin.lhsNonContracting by decide)]
    rfl
  | ⟨1, _⟩ => exact (dotLin.lhsIdx_val_of_single rfl (ix2 r q) _).trans hk

/-- The right operand's entry the product reads there is `(k, 0)`. -/
theorem dotLin_rhs (r : Fin 100000) (q : Fin 1) (k : Fin 64) :
    dotLin.rhsIdx (ix2 r q) ((contrEquiv1 dotLin 64 rfl rfl).symm k) = ix2 k 0 := by
  have hk := contrEquiv1_symm_val dotLin 64 rfl rfl k
  refine funext fun a => Fin.ext ?_
  match a with
  | ⟨0, _⟩ => exact (dotLin.rhsIdx_val_of_single rfl (ix2 r q) _).trans hk
  | ⟨1, _⟩ =>
    show (dotLin.rhsIdx (ix2 r q) ((contrEquiv1 dotLin 64 rfl rfl).symm k) 1).val = (0 : Fin 1).val
    unfold DotDims.rhsIdx
    rw [dif_neg (show ¬(1 : Fin S64x1.rank) ∈ dotLin.rhsBatch by decide), dif_pos (show (1 : Fin S64x1.rank) ∈ dotLin.rhsNonContracting by decide)]
    show q.val = (0 : Fin 1).val
    have h0 : ((0 : Fin 1)).val = 0 := rfl
    have := q.isLt
    omega

theorem dot_add_eq_lin (h : FVec Ideal S100000x64 .f32) (w : FVec Ideal S64x1 .f32) (b : FVec Ideal S1 .f32) :
    addf (Host.dotGeneral (F := Ideal) dot_S100000x64_S64x1_S100000x1_1_0_0_1_n_n none h w)
      (broadcastInDim S100000x1 ![0, 1] bcast_S1x1_S100000x1_0_1 (broadcastInDim S1x1 ![1] bcast_S1_S1x1_1 b))
    = Cert.Spec.lin h w (Cert.Spec.one b) := by
  funext i
  obtain ⟨r, q, rfl⟩ : ∃ (r : Fin 100000) (q : Fin 1), i = ix2 r q := ⟨i 0, i 1, eq_ix2 i⟩
  rw [addf_apply]
  show _ = (∑ k : Fin 64, h (ix2 r k) * w (ix2 k 0)) + b (ix1 0)
  congr 1
  · simp only [Host.dotGeneral]
    rw [Ideal.dotGeneral_apply, ← Equiv.sum_comp (contrEquiv1 dotLin 64 rfl rfl).symm]
    refine Finset.sum_congr rfl fun k _ => ?_
    rw [dotLin_lhs, dotLin_rhs]
  · refine (broadcastInDim_apply _ bcast_S1x1_S100000x1_0_1 _ (ix2 r q) (ix2 0 0) fun a => ?_).trans ?_
    · match a with
      | ⟨0, _⟩ => rfl
      | ⟨1, _⟩ => rfl
    · refine broadcastInDim_apply _ bcast_S1_S1x1_1 b (ix2 0 0) (ix1 0) fun a => ?_
      match a with
      | ⟨0, _⟩ => rfl

end Cert.ReferenceIdeal.Val

end
-- ==== Proof.lean ====
/-
  The certificate of the two-layer graph convolution. Both idealized programs compute, on the extended reals, the same
  composition: from the edge list the sources, the targets and each node's coefficient (the inverse square root of
  one plus its in-degree); per layer a product with the weights, the rows gathered along the sources, scaled by the
  two ends' coefficients and summed into the targets, plus the node's own row times its squared coefficient, plus
  the bias, rectified at zero; then a one-column product plus bias. The kernel program computes the three dense
  stages in five pipelined regions over twenty blocks of 5000 rows, the reference by host operations; each region's
  output array is its stage's whole-array function of its input arrays (a block's rows depend on the same rows of the
  row-blocked inputs and on the whole small operands), a format change is the identity on the extended reals, and a
  product accumulated from zero is the sum over the contracted index, so the two results are one function of the
  arguments. No algebraic law beyond that is needed, and finiteness of the inputs is not used.
-/
import proofs.«117982_j53755810677200_1_alg».proof.Defs
import proofs.«117982_j53755810677200_1_alg».proof.Proof.Gen.Kernel
import proofs.«117982_j53755810677200_1_alg».proof.Proof.Gen.Kernel.Frame
import proofs.«117982_j53755810677200_1_alg».proof.Proof.Gen.KernelIdeal
import proofs.«117982_j53755810677200_1_alg».proof.Proof.Gen.KernelIdeal.Frame
import proofs.«117982_j53755810677200_1_alg».proof.Proof.Gen.ReferenceIdeal
import proofs.«117982_j53755810677200_1_alg».proof.Proof.Gen.ReferenceIdeal.Run
import proofs.«117982_j53755810677200_1_alg».proof.Proof.Gen.Pre_finite_inputs
import proofs.«117982_j53755810677200_1_alg».proof.Proof.KRun
import proofs.«117982_j53755810677200_1_alg».proof.Proof.KChain
import proofs.«117982_j53755810677200_1_alg».proof.Proof.RefVal
import proofs.«117982_j53755810677200_1_alg».proof.Proof.RegionMm
import proofs.«117982_j53755810677200_1_alg».proof.Proof.RegionComb
import proofs.«117982_j53755810677200_1_alg».proof.Proof.RegionLin
import proofs.«117982_j53755810677200_1_alg».proof.Proof.RefMm
import proofs.«117982_j53755810677200_1_alg».proof.Proof.RefComb
import proofs.«117982_j53755810677200_1_alg».proof.Proof.RefLin
import Idealize.ShloMosaic.Adequacy
import Idealize.ShloMosaic.Init

noncomputable section

namespace Cert.Proof

open Idealize.ShloMosaic Idealize.SL.Sem

/-- Each region's output array is its dense stage's function of its input arrays. -/
theorem regionFacts : Cert.KernelIdeal.Val.RegionFacts :=
  ⟨Cert.KernelIdeal.Val.region0, Cert.KernelIdeal.Val.region1, Cert.KernelIdeal.Val.region2,
    Cert.KernelIdeal.Val.region3, Cert.KernelIdeal.Val.region4⟩

/-- The reference's products, rectified sums and head are the same dense stages. -/
theorem refFacts : Cert.ReferenceIdeal.Val.RefFacts :=
  ⟨Cert.ReferenceIdeal.Val.dot_eq_mm, Cert.ReferenceIdeal.Val.relu_eq_comb, Cert.ReferenceIdeal.Val.dot_add_eq_lin⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel program is the kernel program's own text read on the extended reals. -/
theorem preserves : Cert.preserves_Kernel_KernelIdeal := trivial

/-- From memories that agree on the arguments both programs end with the network's value of those arguments in
    their result buffers: the kernel program's by the boundaries' contents, the reference's by its composed term. -/
theorem algebraic : Cert.algebraic_KernelIdeal_ReferenceIdeal := by
  intro m ρ m' ρ' _ hagree
  refine ⟨fun c => Cert.KernelIdeal.Val.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Val.result_eq m ρ c regionFacts), (h c).2⟩)
      (Cert.KernelIdeal.Val.run_named m ρ)
  · refine (θ_run Cert.ReferenceIdeal.defs _ _).mono (fun r h c => ⟨(h c).1.trans ?_, (h c).2⟩)
      (Cert.ReferenceIdeal.Value.run (F := Ideal) m' ρ')
    rw [Cert.ReferenceIdeal.Val.res_eq_rout, Cert.ReferenceIdeal.Val.rout_eq refFacts,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
